-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4x256x256 : Shape := ⟨4, ![8, 4, 256, 256]⟩
abbrev S8x16x256x256 : Shape := ⟨4, ![8, 16, 256, 256]⟩
abbrev S_ : Shape := ⟨0, ![]⟩

class Facts : Prop where
  bcast_S_S8x4x256x256 : S_.BroadcastsInDim S8x4x256x256 (![] : Fin 0 → Fin S8x4x256x256.rank)
  reducesTo_S8x4x256x256_S_d0_1_2_3 : S8x4x256x256.ReducesTo [0, 1, 2, 3] S_
  h_S_ : 0 < S_.numel

variable [Facts]

def fn {F : FTy → Type} [FloatOps F] (main_arg0 : FVec F S8x4x256x256 .f32) (main_arg1 : FVec F S8x4x256x256 .f32) (main_arg2 : IVec S8x16x256x256 1) (main_arg3 : IVec S8x16x256x256 1) : IVec S_ 1 :=
  let main_v0 : FVec F S8x4x256x256 .f32 := Host.absf main_arg0
  let main_cst : FVec F S_ .f32 := constant S_ .f32 0x7F800000#32
  let main_v1 : FVec F S8x4x256x256 .f32 := broadcastInDim S8x4x256x256 ![] bcast_S_S8x4x256x256 main_cst
  let main_v2 : IVec S8x4x256x256 1 := cmpf .olt main_v0 main_v1
  let main_c : IVec S_ 1 := constantI S_ 1 1#1
  let main_v3 : IVec S_ 1 := (fun x v => Host.reduce IntOp.andi x v reducesTo_S8x4x256x256_S_d0_1_2_3 h_S_) main_v2 main_c
  let main_v4 : FVec F S8x4x256x256 .f32 := Host.absf main_arg1
  let main_cst_0 : FVec F S_ .f32 := constant S_ .f32 0x7F800000#32
  let main_v5 : FVec F S8x4x256x256 .f32 := broadcastInDim S8x4x256x256 ![] bcast_S_S8x4x256x256 main_cst_0
  let main_v6 : IVec S8x4x256x256 1 := cmpf .olt main_v4 main_v5
  let main_c_1 : IVec S_ 1 := constantI S_ 1 1#1
  let main_v7 : IVec S_ 1 := (fun x v => Host.reduce IntOp.andi x v reducesTo_S8x4x256x256_S_d0_1_2_3 h_S_) main_v6 main_c_1
  let main_v8 : IVec S_ 1 := andi main_v3 main_v7
  main_v8
-- ==== Kernel.lean ====
abbrev S8x4x256x256 : Shape := ⟨4, ![8, 4, 256, 256]⟩
abbrev S8x16x256x256 : Shape := ⟨4, ![8, 16, 256, 256]⟩
abbrev S1x1 : Shape := ⟨2, ![1, 1]⟩
abbrev S1x4x256x256 : Shape := ⟨4, ![1, 4, 256, 256]⟩
abbrev S1x16x256x256 : Shape := ⟨4, ![1, 16, 256, 256]⟩
abbrev S4x256x256 : Shape := ⟨3, ![4, 256, 256]⟩
abbrev S1x1x256x256 : Shape := ⟨4, ![1, 1, 256, 256]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩
abbrev S1 : Shape := ⟨1, ![1]⟩
abbrev S_ : Shape := ⟨0, ![]⟩

abbrev nBuf : Space → Nat
  | .hbm => 10
  | .vmem => 10
  | .smem => 0
  | _ => 0

abbrev bufTy : (tb : Table) → Fin (tcTables nBuf tb) → BufTy
  | .hbm, ⟨0, _⟩ => ⟨S8x4x256x256, .f32⟩
  | .hbm, ⟨1, _⟩ => ⟨S8x4x256x256, .f32⟩
  | .hbm, ⟨2, _⟩ => ⟨S8x16x256x256, .i1⟩
  | .hbm, ⟨3, _⟩ => ⟨S8x16x256x256, .i1⟩
  | .hbm, ⟨4, _⟩ => ⟨S8x16x256x256, .i32⟩
  | .hbm, ⟨5, _⟩ => ⟨S8x16x256x256, .i32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1x4x256x256, .f32⟩
  | .local _ .vmem, ⟨1, _⟩ => ⟨S1x4x256x256, .f32⟩
  | .local _ .vmem, ⟨2, _⟩ => ⟨S1x4x256x256, .f32⟩
  | .local _ .vmem, ⟨3, _⟩ => ⟨S1x4x256x256, .f32⟩
  | .local _ .vmem, ⟨4, _⟩ => ⟨S1x16x256x256, .i32⟩
  | .local _ .vmem, ⟨5, _⟩ => ⟨S1x16x256x256, .i32⟩
  | .local _ .vmem, ⟨6, _⟩ => ⟨S1x16x256x256, .i32⟩
  | .local _ .vmem, ⟨7, _⟩ => ⟨S1x16x256x256, .i32⟩
  | .local _ .vmem, ⟨8, _⟩ => ⟨S1x1, .f32⟩
  | .local _ .vmem, ⟨9, _⟩ => ⟨S1x1, .f32⟩
  | _, _ => ⟨S8x4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_8 : BitVec 32 := 0#32
  let c16_i32 : BitVec 32 := 16#32
  let v8 : BitVec 32 := Scalar.addi c0_i32_8 c16_i32
  let c1_i32 : BitVec 32 := 1#32
  ⟨c0_i32_8, v8, c1_i32⟩
def k0_off1 (k0_t1 : Fin k0_t1_loop.trips) : Fin 4 → Nat :=
  let c0_15 : Index := 0#32
  let c0_i32_8 : BitVec 32 := 0#32
  let c1_i32 : BitVec 32 := 1#32
  let arg7 : BitVec 32 := Scf.iv c0_i32_8 c1_i32 k0_t1
  let v18 : Index := Scalar.indexCast arg7
  let c0_16 : Index := 0#32
  let c0_17 : Index := 0#32
  ![0, v18.toNat, 0, 0]
def k0_cond2 (i : grid0.Coords) : BitVec 1 :=
  let arg0 : BitVec 32 := BitVec.ofNat 32 (i 0).val
  let c7_i32 : BitVec 32 := 7#32
  let v15 : BitVec 1 := Scalar.cmpi .eq arg0 c7_i32
  let v16 : BitVec 32 := Scalar.extui v15
  let c0_i32_14 : BitVec 32 := 0#32
  let v17 : BitVec 1 := Scalar.cmpi .ne v16 c0_i32_14
  v17

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x256x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x256x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  natLt_1_32 : 1 < 32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x4x256x256_S1x4x256x256_0_0_0_0 : ∀ a, (![0, 0, 0, 0] : Fin 4 → Nat) a + S1x4x256x256.size a ≤ S1x4x256x256.size a
  h_S1x4x256x256 : 0 < S1x4x256x256.numel
  shapeCasts_S1x4x256x256_S4x256x256 : S1x4x256x256.ShapeCasts S4x256x256
  h_S1x1x256x256 : 0 < S1x1x256x256.numel
  shapeCasts_S1x1x256x256_S256x256 : S1x1x256x256.ShapeCasts S256x256
  shapeCasts_S256x256_S1x256x256 : S256x256.ShapeCasts S1x256x256
  broadcasts_S1x256x256_S4x256x256 : S1x256x256.Broadcasts S4x256x256
  reduces_S4x256x256_S256x256 : S4x256x256.Reduces [0] S256x256
  reduces_S256x256_S256 : S256x256.Reduces [1] S256
  shapeCasts_S256_S256x1 : S256.ShapeCasts S256x1
  reduces_S256x1_S1 : S256x1.Reduces [0] S1
  shapeCasts_S1_S1x1 : S1.ShapeCasts S1x1
  shapeCasts_S1x1_S_ : S1x1.ShapeCasts S_
  hrank0 : 0 < grid0.rank
  k0_t1_ok : k0_t1_loop.OK
  k0_off1_inb : ∀ k0_t1 : Fin k0_t1_loop.trips, ∀ a, (k0_off1 k0_t1) a + S1x1x256x256.size a ≤ S1x16x256x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x256x256.size a ≤ S8x4x256x256.size a
  hwx0_0 : ∀ i : grid0.Coords, EltTy.bits .f32 = 32 ∨ (Rect.block (s := S8x4x256x256) S1x4x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x256x256.size a ≤ S8x4x256x256.size a
  hwx0_1 : ∀ i : grid0.Coords, EltTy.bits .f32 = 32 ∨ (Rect.block (s := S8x4x256x256) S1x4x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x256x256.size a ≤ S8x16x256x256.size a
  hwx0_2 : ∀ i : grid0.Coords, EltTy.bits .i32 = 32 ∨ (Rect.block (s := S8x16x256x256) S1x16x256x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x256x256.size a ≤ S8x16x256x256.size a
  hwx0_3 : ∀ i : grid0.Coords, EltTy.bits .i32 = 32 ∨ (Rect.block (s := S8x16x256x256) S1x16x256x256.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_arg0) S1x4x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x16x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x4x256x256 : Shape := ⟨4, ![8, 4, 256, 256]⟩
abbrev S8x16x256x256 : Shape := ⟨4, ![8, 16, 256, 256]⟩
abbrev S8x16x1x256x256 : Shape := ⟨5, ![8, 16, 1, 256, 256]⟩
abbrev S8x1x4x256x256 : Shape := ⟨5, ![8, 1, 4, 256, 256]⟩
abbrev S8x16x4x256x256 : Shape := ⟨5, ![8, 16, 4, 256, 256]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8x4x256x256, .f32⟩
  | .hbm, ⟨1, _⟩ => ⟨S8x4x256x256, .f32⟩
  | .hbm, ⟨2, _⟩ => ⟨S8x16x256x256, .i1⟩
  | .hbm, ⟨3, _⟩ => ⟨S8x16x256x256, .i1⟩
  | .hbm, ⟨4, _⟩ => ⟨S8x16x256x256, .f32⟩
  | .hbm, ⟨5, _⟩ => ⟨S8x16x1x256x256, .f32⟩
  | .hbm, ⟨6, _⟩ => ⟨S8x16x256x256, .f32⟩
  | .hbm, ⟨7, _⟩ => ⟨S8x16x1x256x256, .f32⟩
  | .hbm, ⟨8, _⟩ => ⟨S8x1x4x256x256, .f32⟩
  | .hbm, ⟨9, _⟩ => ⟨S8x16x4x256x256, .f32⟩
  | .hbm, ⟨10, _⟩ => ⟨S8x16x4x256x256, .f32⟩
  | .hbm, ⟨11, _⟩ => ⟨S8x16x4x256x256, .f32⟩
  | .hbm, ⟨12, _⟩ => ⟨S8x1x4x256x256, .f32⟩
  | .hbm, ⟨13, _⟩ => ⟨S8x16x4x256x256, .f32⟩
  | .hbm, ⟨14, _⟩ => ⟨S8x16x4x256x256, .f32⟩
  | .hbm, ⟨15, _⟩ => ⟨S8x16x4x256x256, .f32⟩
  | .hbm, ⟨16, _⟩ => ⟨S8x16x4x256x256, .f32⟩
  | .hbm, ⟨17, _⟩ => ⟨S8x16x4x256x256, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | _, _ => ⟨S8x4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S8x16x256x256_S8x16x1x256x256_0_1_3_4 : S8x16x256x256.BroadcastsInDim S8x16x1x256x256 (![0, 1, 3, 4] : Fin 4 → Fin S8x16x1x256x256.rank)
  bcast_S8x4x256x256_S8x1x4x256x256_0_2_3_4 : S8x4x256x256.BroadcastsInDim S8x1x4x256x256 (![0, 2, 3, 4] : Fin 4 → Fin S8x1x4x256x256.rank)
  bcast_S8x1x4x256x256_S8x16x4x256x256_0_1_2_3_4 : S8x1x4x256x256.BroadcastsInDim S8x16x4x256x256 (![0, 1, 2, 3, 4] : Fin 5 → Fin S8x16x4x256x256.rank)
  bcast_S8x16x1x256x256_S8x16x4x256x256_0_1_2_3_4 : S8x16x1x256x256.BroadcastsInDim S8x16x4x256x256 (![0, 1, 2, 3, 4] : Fin 5 → Fin S8x16x4x256x256.rank)
  reducesTo_S8x16x4x256x256_S_d0_1_2_3_4 : S8x16x4x256x256.ReducesTo [0, 1, 2, 3, 4] S_
  h_S_ : 0 < S_.numel

variable [Facts₀]

class Facts : Prop extends Facts₀ where

variable [Facts]
-- ==== Proof.KI.Schedule.lean ====
/-
  The schedule of the squared-error accumulation over the grid of eight batch entries.
  The body branches twice on the grid coordinate: at the first point it clears the running total kept in the
  one-by-one scratch, and at the last point it copies that total into the one-by-one result block. Both
  conditions are decided here over the eight points, together with where the result window is idle (every
  point but the last) and where its block is written back (the last point only).
-/
import proofs.«150904_j52905407152940_2_alg».proof.Proof.Gen.KernelIdeal.Launch
import proofs.«150904_j52905407152940_2_alg».proof.Proof.Gen.KernelIdeal.Skeleton
import proofs.«150904_j52905407152940_2_alg».proof.Proof.Gen.KernelIdeal.Points
import proofs.«150904_j52905407152940_2_alg».proof.Proof.Gen.KernelIdeal.Loops
import proofs.«150904_j52905407152940_2_alg».proof.Proof.Gen.KernelIdeal.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- "This is the first batch entry": the running total is cleared here. -/
abbrev isFirst (i : grid0.Coords) : Prop :=
  (Scalar.cmpi .ne (Scalar.extui (Scalar.cmpi .eq (BitVec.ofNat 32 (i 0).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- "This is the last batch entry": the total is copied to the result block here. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
/-- Away from the last point nothing is stored into the result block and it is not written back. -/
theorem idle_4 : ∀ t : Fin cfg0.N, ¬isLast (grid0.coords t) → cfg0.idle 4 (grid0.coords t) = true := by decide +kernel
theorem noFlush_4 : ∀ t : Fin cfg0.N, ¬isLast (grid0.coords t) → (cfg0.win 4).flush t = false := by decide +kernel
/-- At the last point the result block is stored. -/
theorem live_4 : ∀ t : Fin cfg0.N, isLast (grid0.coords t) → cfg0.idle 4 (grid0.coords t) = false := by decide +kernel

/-! ## The memrefs the body is called with -/

abbrev ms0 (t : Fin cfg0.N) : Memref sig .tc .vmem S1x4x256x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4x256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x16x256x256 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x16x256x256 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The scratch holding the running total. -/
abbrev scM : Memref sig .tc .vmem S1x1 .f32 := Memref.whole cc0_scratch0
abbrev VS : View sig .tc .vmem S1x1 .f32 := scM.view
/-- One staging buffer of the result window, through which its contents are stated. -/
abbrev VO : View sig .tc .vmem S1x1 .f32 := (Memref.whole cc0_stg4_0 : Memref sig .tc .vmem S1x1 .f32).view

/-- What the region may use beside its windows: the scratch at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Acc

end
-- ==== Proof.KI.CaseFirst.lean ====
/-
  The body at the first batch entry. The running total is cleared, the sixteen mask slots of this entry are
  summed, and the total becomes zero plus that sum. Nothing is stored into the result block. What the scratch
  ends with is recorded as the list of its stores, which does not mention what the scratch held on entry.
-/
import proofs.«150904_j52905407152940_2_alg».proof.Proof.KI.Schedule

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores into the scratch at the first point (last first), with the run of the body that leaves them: the
    four input blocks and the untouched result block are handed back as found. -/
noncomputable def runFirst (c : Dev nD) (i : grid0.Coords) (arg1 : Memref sig .tc .vmem S1x4x256x256 .f32) (harg1 : arg1.IsWhole) (arg2 : Memref sig .tc .vmem S1x4x256x256 .f32) (harg2 : arg2.IsWhole) (arg3 : Memref sig .tc .vmem S1x16x256x256 .i32) (harg3 : arg3.IsWhole) (arg4 : Memref sig .tc .vmem S1x16x256x256 .i32) (harg4 : arg4.IsWhole) (arg5 : Memref sig .tc .vmem S1x1 .f32) (harg5 : arg5.IsWhole) (arg6 : Memref sig .tc .vmem S1x1 .f32) (harg6 : arg6.IsWhole) (hc0 : isFirst i) (hc1 : ¬isLast i)
    (x0 x1 : Vec F S1x4x256x256 .f32) (x2 x3 : Vec F S1x16x256x256 .i32) :
    { LS : List (View.Piece (Elt F) S1x1 .f32) //
      ∀ (xs xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4 ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare xi4 ∗ (∃ f, arg6.view.loc (c : Thread nD τ) ↦[arg6.view.set]{fullShare} arg6.view.writes (Elt F) f LS)) -∗ K ⟨⟩))
          ⊢ wp frame (wpE (defs₀ (F := F)) Variants.none c none) E (cc0__mse_kernel i arg1 harg1 arg2 harg2 arg3 harg3 arg4 harg4 arg5 harg5 arg6 harg6) K } := by
  refine ⟨?_, fun xs xi4 E K => ?run⟩
  case run =>
    simp only [cc0__mse_kernel_eq_skeleton]; unfold cc0__mse_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

end Cert.KernelIdeal.Acc

end
-- ==== Proof.KI.CaseMiddle.lean ====
/-
  The body at a batch entry that is neither the first nor the last. The sixteen mask slots of this entry are
  summed and added to the running total the entry before left in the scratch. Nothing is stored into the
  result block.
-/
import proofs.«150904_j52905407152940_2_alg».proof.Proof.KI.CaseFirst

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores into the scratch at a middle point (last first), over the total `xs` the point before left, with
    the run of the body that leaves them. -/
noncomputable def runMiddle (c : Dev nD) (i : grid0.Coords) (arg1 : Memref sig .tc .vmem S1x4x256x256 .f32) (harg1 : arg1.IsWhole) (arg2 : Memref sig .tc .vmem S1x4x256x256 .f32) (harg2 : arg2.IsWhole) (arg3 : Memref sig .tc .vmem S1x16x256x256 .i32) (harg3 : arg3.IsWhole) (arg4 : Memref sig .tc .vmem S1x16x256x256 .i32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : ¬isLast i)
    (x0 x1 : Vec F S1x4x256x256 .f32) (x2 x3 : Vec F S1x16x256x256 .i32) (xs : Vec F S1x1 .f32) :
    { LS : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4 ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare xi4 ∗ (∃ f, arg6.view.loc (c : Thread nD τ) ↦[arg6.view.set]{fullShare} arg6.view.writes (Elt F) f LS)) -∗ K ⟨⟩))
          ⊢ wp frame (wpE (defs₀ (F := F)) Variants.none c none) E (cc0__mse_kernel i arg1 harg1 arg2 harg2 arg3 harg3 arg4 harg4 arg5 harg5 arg6 harg6) K } := by
  refine ⟨?_, fun xi4 E K => ?run⟩
  case run =>
    simp only [cc0__mse_kernel_eq_skeleton]; unfold cc0__mse_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

end Cert.KernelIdeal.Acc

end
-- ==== Proof.KI.CaseLast.lean ====
/-
  The body at the last batch entry. The sixteen mask slots of this entry are summed and added to the running
  total, and the new total is copied into the result block.
-/
import proofs.«150904_j52905407152940_2_alg».proof.Proof.KI.CaseMiddle

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores into the result block and into the scratch at the last point (last first), over the total `xs`
    the point before left, with the run of the body that leaves them. -/
noncomputable def runLast (c : Dev nD) (i : grid0.Coords) (arg1 : Memref sig .tc .vmem S1x4x256x256 .f32) (harg1 : arg1.IsWhole) (arg2 : Memref sig .tc .vmem S1x4x256x256 .f32) (harg2 : arg2.IsWhole) (arg3 : Memref sig .tc .vmem S1x16x256x256 .i32) (harg3 : arg3.IsWhole) (arg4 : Memref sig .tc .vmem S1x16x256x256 .i32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i)
    (x0 x1 : Vec F S1x4x256x256 .f32) (x2 x3 : Vec F S1x16x256x256 .i32) (xs : Vec F S1x1 .f32) :
    Σ' (L4 : List (View.Piece (Elt F) S1x1 .f32)), { LS : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0__mse_kernel i arg1 harg1 arg2 harg2 arg3 harg3 arg4 harg4 arg5 harg5 arg6 harg6) K } := by
  refine ⟨?_, ?_, fun E K => ?run⟩
  case run =>
    simp only [cc0__mse_kernel_eq_skeleton]; unfold cc0__mse_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2
    obtain rfl := harg4.eq_unread hf3; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

end Cert.KernelIdeal.Acc

end
-- ==== Proof.KI.Total.lean ====
/-
  The running total point by point, and the frame of the whole program.
  After the first batch entry the scratch holds what the first case's stores leave; after every later entry what
  the middle (or, at the eighth entry, the last) case's stores leave over the total of the entry before. The
  result block is stored at the eighth entry only, with the final total. From these the proof data of the one
  pipeline is assembled, the body is shown to meet it at every point by the case the point is in, and the
  program's run follows: it terminates, faults nowhere and leaves its four argument arrays as they were.
-/
import proofs.«150904_j52905407152940_2_alg».proof.Proof.KI.CaseLast

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, read back from its stores -/

theorem coverFirst (c : Dev nD) (i : grid0.Coords) (arg1 : Memref sig .tc .vmem S1x4x256x256 .f32) (harg1 : arg1.IsWhole) (arg2 : Memref sig .tc .vmem S1x4x256x256 .f32) (harg2 : arg2.IsWhole) (arg3 : Memref sig .tc .vmem S1x16x256x256 .i32) (harg3 : arg3.IsWhole) (arg4 : Memref sig .tc .vmem S1x16x256x256 .i32) (harg4 : arg4.IsWhole) (arg5 : Memref sig .tc .vmem S1x1 .f32) (harg5 : arg5.IsWhole) (arg6 : Memref sig .tc .vmem S1x1 .f32) (harg6 : arg6.IsWhole) (hc0 : isFirst i) (hc1 : ¬isLast i)
    (x0 x1 : Vec F S1x4x256x256 .f32) (x2 x3 : Vec F S1x16x256x256 .i32) (y : S1x1.Idx) : ∃ pc ∈ (runFirst c i arg1 harg1 arg2 harg2 arg3 harg3 arg4 harg4 arg5 harg5 arg6 harg6 hc0 hc1 x0 x1 x2 x3).1, y ∈ pc.1.set :=
  View.cover_of_tiledL (runFirst c i arg1 harg1 arg2 harg2 arg3 harg3 arg4 harg4 arg5 harg5 arg6 harg6 hc0 hc1 x0 x1 x2 x3).1 S1x1.size (by sl_kernel_rfl) y

/-- The total after the first entry. -/
def totalFirst (c : Dev nD) (i : grid0.Coords) (arg1 : Memref sig .tc .vmem S1x4x256x256 .f32) (harg1 : arg1.IsWhole) (arg2 : Memref sig .tc .vmem S1x4x256x256 .f32) (harg2 : arg2.IsWhole) (arg3 : Memref sig .tc .vmem S1x16x256x256 .i32) (harg3 : arg3.IsWhole) (arg4 : Memref sig .tc .vmem S1x16x256x256 .i32) (harg4 : arg4.IsWhole) (arg5 : Memref sig .tc .vmem S1x1 .f32) (harg5 : arg5.IsWhole) (arg6 : Memref sig .tc .vmem S1x1 .f32) (harg6 : arg6.IsWhole) (hc0 : isFirst i) (hc1 : ¬isLast i)
    (x0 x1 : Vec F S1x4x256x256 .f32) (x2 x3 : Vec F S1x16x256x256 .i32) : Vec F S1x1 .f32 :=
  VS.read (Elt F) (VS.writes (Elt F) VS.junk (runFirst c i arg1 harg1 arg2 harg2 arg3 harg3 arg4 harg4 arg5 harg5 arg6 harg6 hc0 hc1 x0 x1 x2 x3).1)

theorem coverMiddle (c : Dev nD) (i : grid0.Coords) (arg1 : Memref sig .tc .vmem S1x4x256x256 .f32) (harg1 : arg1.IsWhole) (arg2 : Memref sig .tc .vmem S1x4x256x256 .f32) (harg2 : arg2.IsWhole) (arg3 : Memref sig .tc .vmem S1x16x256x256 .i32) (harg3 : arg3.IsWhole) (arg4 : Memref sig .tc .vmem S1x16x256x256 .i32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : ¬isLast i)
    (x0 x1 : Vec F S1x4x256x256 .f32) (x2 x3 : Vec F S1x16x256x256 .i32) (xs : Vec F S1x1 .f32) (y : S1x1.Idx) : ∃ pc ∈ (runMiddle c i arg1 harg1 arg2 harg2 arg3 harg3 arg4 harg4 arg5 harg5 arg6 harg6 hc0 hc1 x0 x1 x2 x3 xs).1, y ∈ pc.1.set :=
  View.cover_of_tiledL (runMiddle c i arg1 harg1 arg2 harg2 arg3 harg3 arg4 harg4 arg5 harg5 arg6 harg6 hc0 hc1 x0 x1 x2 x3 xs).1 S1x1.size (by sl_kernel_rfl) y

/-- The total after a middle entry, over the total `xs` before it. -/
def totalMiddle (c : Dev nD) (i : grid0.Coords) (arg1 : Memref sig .tc .vmem S1x4x256x256 .f32) (harg1 : arg1.IsWhole) (arg2 : Memref sig .tc .vmem S1x4x256x256 .f32) (harg2 : arg2.IsWhole) (arg3 : Memref sig .tc .vmem S1x16x256x256 .i32) (harg3 : arg3.IsWhole) (arg4 : Memref sig .tc .vmem S1x16x256x256 .i32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : ¬isLast i)
    (x0 x1 : Vec F S1x4x256x256 .f32) (x2 x3 : Vec F S1x16x256x256 .i32) (xs : Vec F S1x1 .f32) : Vec F S1x1 .f32 :=
  VS.read (Elt F) (VS.writes (Elt F) VS.junk (runMiddle c i arg1 harg1 arg2 harg2 arg3 harg3 arg4 harg4 arg5 harg5 arg6 harg6 hc0 hc1 x0 x1 x2 x3 xs).1)

theorem coverLastOut (c : Dev nD) (i : grid0.Coords) (arg1 : Memref sig .tc .vmem S1x4x256x256 .f32) (harg1 : arg1.IsWhole) (arg2 : Memref sig .tc .vmem S1x4x256x256 .f32) (harg2 : arg2.IsWhole) (arg3 : Memref sig .tc .vmem S1x16x256x256 .i32) (harg3 : arg3.IsWhole) (arg4 : Memref sig .tc .vmem S1x16x256x256 .i32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i)
    (x0 x1 : Vec F S1x4x256x256 .f32) (x2 x3 : Vec F S1x16x256x256 .i32) (xs : Vec F S1x1 .f32) (y : S1x1.Idx) : ∃ pc ∈ (runLast c i arg1 harg1 arg2 harg2 arg3 harg3 arg4 harg4 arg5 harg5 arg6 harg6 hc0 hc1 x0 x1 x2 x3 xs).1, y ∈ pc.1.set :=
  View.cover_of_tiledL (runLast c i arg1 harg1 arg2 harg2 arg3 harg3 arg4 harg4 arg5 harg5 arg6 harg6 hc0 hc1 x0 x1 x2 x3 xs).1 S1x1.size (by sl_kernel_rfl) y

/-- The result block after the last entry. -/
def resultLast (c : Dev nD) (i : grid0.Coords) (arg1 : Memref sig .tc .vmem S1x4x256x256 .f32) (harg1 : arg1.IsWhole) (arg2 : Memref sig .tc .vmem S1x4x256x256 .f32) (harg2 : arg2.IsWhole) (arg3 : Memref sig .tc .vmem S1x16x256x256 .i32) (harg3 : arg3.IsWhole) (arg4 : Memref sig .tc .vmem S1x16x256x256 .i32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i)
    (x0 x1 : Vec F S1x4x256x256 .f32) (x2 x3 : Vec F S1x16x256x256 .i32) (xs : Vec F S1x1 .f32) : Vec F S1x1 .f32 :=
  VO.read (Elt F) (VO.writes (Elt F) VO.junk (runLast c i arg1 harg1 arg2 harg2 arg3 harg3 arg4 harg4 arg5 harg5 arg6 harg6 hc0 hc1 x0 x1 x2 x3 xs).1)

theorem coverLast (c : Dev nD) (i : grid0.Coords) (arg1 : Memref sig .tc .vmem S1x4x256x256 .f32) (harg1 : arg1.IsWhole) (arg2 : Memref sig .tc .vmem S1x4x256x256 .f32) (harg2 : arg2.IsWhole) (arg3 : Memref sig .tc .vmem S1x16x256x256 .i32) (harg3 : arg3.IsWhole) (arg4 : Memref sig .tc .vmem S1x16x256x256 .i32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i)
    (x0 x1 : Vec F S1x4x256x256 .f32) (x2 x3 : Vec F S1x16x256x256 .i32) (xs : Vec F S1x1 .f32) (y : S1x1.Idx) : ∃ pc ∈ (runLast c i arg1 harg1 arg2 harg2 arg3 harg3 arg4 harg4 arg5 harg5 arg6 harg6 hc0 hc1 x0 x1 x2 x3 xs).2.1, y ∈ pc.1.set :=
  View.cover_of_tiledL (runLast c i arg1 harg1 arg2 harg2 arg3 harg3 arg4 harg4 arg5 harg5 arg6 harg6 hc0 hc1 x0 x1 x2 x3 xs).2.1 S1x1.size (by sl_kernel_rfl) y

/-- The total after the last entry. -/
def totalLast (c : Dev nD) (i : grid0.Coords) (arg1 : Memref sig .tc .vmem S1x4x256x256 .f32) (harg1 : arg1.IsWhole) (arg2 : Memref sig .tc .vmem S1x4x256x256 .f32) (harg2 : arg2.IsWhole) (arg3 : Memref sig .tc .vmem S1x16x256x256 .i32) (harg3 : arg3.IsWhole) (arg4 : Memref sig .tc .vmem S1x16x256x256 .i32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i)
    (x0 x1 : Vec F S1x4x256x256 .f32) (x2 x3 : Vec F S1x16x256x256 .i32) (xs : Vec F S1x1 .f32) : Vec F S1x1 .f32 :=
  VS.read (Elt F) (VS.writes (Elt F) VS.junk (runLast c i arg1 harg1 arg2 harg2 arg3 harg3 arg4 harg4 arg5 harg5 arg6 harg6 hc0 hc1 x0 x1 x2 x3 xs).2.1)

/-- A placeholder for the result block where nothing is stored into it: never consulted. -/
def noResult : Vec F S1x1 .f32 := VO.read (Elt F) (VO.writes (Elt F) VO.junk [])

/-! ## The total after each point -/

/-- After the body at position `n`: the result block's contents (a placeholder before the last point) and the
    running total in the scratch. -/
def holds (c : Dev nD) : (n : ℕ) → n < cfg0.N → Vec F S1x1 .f32 × Vec F S1x1 .f32
  | 0, hn => (noResult, totalFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((isFirst_iff ⟨0, hn⟩).mpr (Nat.zero_mod _)) (fun h => (fun h => by (try dsimp only at h); omega) ((isLast_iff ⟨0, hn⟩).mp h)) (iblk m c 0 ⟨0, hn⟩) (iblk m c 1 ⟨0, hn⟩) (iblk m c 2 ⟨0, hn⟩) (iblk m c 3 ⟨0, hn⟩))
  | n + 1, hn =>
    have hN : n + 1 < 8 := lt_of_lt_of_eq hn (show cfg0.N = 8 from N_0)
    if h1 : (n + 1) % 8 = 7 then
      (resultLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => (fun h => by (try dsimp only at h); omega) ((isFirst_iff ⟨n + 1, hn⟩).mp h)) ((isLast_iff ⟨n + 1, hn⟩).mpr h1) (iblk m c 0 ⟨n + 1, hn⟩) (iblk m c 1 ⟨n + 1, hn⟩) (iblk m c 2 ⟨n + 1, hn⟩) (iblk m c 3 ⟨n + 1, hn⟩) (holds c n (Nat.lt_of_succ_lt hn)).2,
       totalLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => (fun h => by (try dsimp only at h); omega) ((isFirst_iff ⟨n + 1, hn⟩).mp h)) ((isLast_iff ⟨n + 1, hn⟩).mpr h1) (iblk m c 0 ⟨n + 1, hn⟩) (iblk m c 1 ⟨n + 1, hn⟩) (iblk m c 2 ⟨n + 1, hn⟩) (iblk m c 3 ⟨n + 1, hn⟩) (holds c n (Nat.lt_of_succ_lt hn)).2)
    else
      (noResult, totalMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => (fun h => by (try dsimp only at h); omega) ((isFirst_iff ⟨n + 1, hn⟩).mp h)) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (holds c n (Nat.lt_of_succ_lt hn)).2)

theorem holds_first (c : Dev nD) (t : Fin cfg0.N) (h0 : t.val % 8 = 0) (h1 : ¬t.val % 8 = 7) :
    holds m c t.val t.isLt = (noResult, totalFirst c (grid0.coords t) (ms0 t) (hs0 t) (ms1 t) (hs1 t) (ms2 t) (hs2 t) (ms3 t) (hs3 t) (ms4 t) (hs4 t) scM (Memref.isWhole_whole _) ((isFirst_iff t).mpr h0) (fun h => h1 ((isLast_iff t).mp h)) (iblk m c 0 t) (iblk m c 1 t) (iblk m c 2 t) (iblk m c 3 t)) := by
  obtain ⟨n, hn⟩ := t
  have hN : n < 8 := lt_of_lt_of_eq hn (show cfg0.N = 8 from N_0)
  cases n with
  | zero => exact rfl
  | succ n => exfalso; (try dsimp only at h0); omega

theorem holds_middle (c : Dev nD) (t : Fin cfg0.N) (h0 : ¬t.val % 8 = 0) (h1 : ¬t.val % 8 = 7) :
    holds m c t.val t.isLt = (noResult, totalMiddle c (grid0.coords t) (ms0 t) (hs0 t) (ms1 t) (hs1 t) (ms2 t) (hs2 t) (ms3 t) (hs3 t) (ms4 t) (hs4 t) scM (Memref.isWhole_whole _) (fun h => h0 ((isFirst_iff t).mp h)) (fun h => h1 ((isLast_iff t).mp h)) (iblk m c 0 t) (iblk m c 1 t) (iblk m c 2 t) (iblk m c 3 t) (holds m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

theorem holds_last (c : Dev nD) (t : Fin cfg0.N) (h0 : ¬t.val % 8 = 0) (h1 : t.val % 8 = 7) :
    holds m c t.val t.isLt = (resultLast c (grid0.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk m c 0 t) (iblk m c 1 t) (iblk m c 2 t) (iblk m c 3 t) (holds m c (t.val - 1) (Nat.lt_of_le_of_lt (Nat.sub_le _ _) t.isLt)).2,
      totalLast c (grid0.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk m c 0 t) (iblk m c 1 t) (iblk m c 2 t) (iblk m c 3 t) (holds m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-! ## The invariant between points -/

/-- Before the first point the scratch holds anything; before any later point it holds the total so far. The
    generator register is at some state throughout. -/
def PhiS (c : Dev nD) : (n : ℕ) → n ≤ cfg0.N → sProp 𝕄
  | 0, _ => Pipeline.ΦA spec0 c
  | n + 1, hn => iprop(iprop(owns (c : Thread nD τ) scM fullShare ((holds m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((holds m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((holds m c (n - 1) (by omega)).2)) ∗ (∃ r, prngReg c r)) := by
  cases n with
  | zero => exact absurd rfl hz
  | succ n => rfl

/-! ## The proof data of the pipeline -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (holds m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (holds m c t.val t.isLt).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in (c : Dev nD) (t : Fin cfg0.N) :
    (dats m 0 c).leavesExact 0 t = owns (c : Thread nD τ) (ms0 t) fullShare (iblk m c 0 t)
    ∧ (dats m 0 c).leavesExact 1 t = owns (c : Thread nD τ) (ms1 t) fullShare (iblk m c 1 t)
    ∧ (dats m 0 c).leavesExact 2 t = owns (c : Thread nD τ) (ms2 t) fullShare (iblk m c 2 t)
    ∧ (dats m 0 c).leavesExact 3 t = owns (c : Thread nD τ) (ms3 t) fullShare (iblk m c 3 t) := by
  refine ⟨?_, ?_, ?_, ?_⟩
  · unfold Dat.leavesExact; rw [live_0 t, after_0]
  · unfold Dat.leavesExact; rw [live_1 t, after_1]
  · unfold Dat.leavesExact; rw [live_2 t, after_2]
  · unfold Dat.leavesExact; rw [live_3 t, after_3]

set_option maxHeartbeats 4800000 in
/-- The body at any point meets the proof data: the inputs' buffers hold their blocks; the point is in one of
    the three cases, whose run applies; the invariant hands the body the scratch at the total so far (at
    anything at the first point) and takes it back at the new total. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [(leaves_in m c t).1, (leaves_in m c t).2.1, (leaves_in m c t).2.2.1, (leaves_in m c t).2.2.2]
  have hN : t.val < 8 := lt_of_lt_of_eq t.isLt (show cfg0.N = 8 from N_0)
  by_cases h0 : t.val % 8 = 0
  · have h1 : ¬t.val % 8 = 7 := by omega
    have hz : t.val = 0 := by omega
    rw [Dat.leavesExact_idle (dats m 0 c) 4 t (idle_4 t (fun h => h1 ((isLast_iff t).mp h))) (noFlush_4 t (fun h => h1 ((isLast_iff t).mp h)))]
    rw [holds_first m c t h0 h1]
    unfold totalFirst; (try dsimp only)
    rw [PhiS_castSucc m c t, PhiS_zero m c _ _ hz, PhiA_eq]
    iintro ⟨⟨⟨%ds, HS⟩, Hg⟩, Ho, ⟨%d0, H0⟩, ⟨%d1, H1⟩, ⟨%d2, H2⟩, ⟨%d3, H3⟩, ⟨%d4, H4⟩⟩
    iapply ((runFirst c (grid0.coords t) _ _ _ _ _ _ _ _ _ _ _ _ ((isFirst_iff t).mpr h0) (fun h => h1 ((isLast_iff t).mp h)) (iblk m c 0 t) (iblk m c 1 t) (iblk m c 2 t) (iblk m c 3 t)).2 _ _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS Hg]
    · isplitl [HS]
      · unfold owns; iexists _; isplitr
        swap; · iexact HS
        ipureintro; exact View.read_writes_of_cover _ _ _ _ _ (coverFirst c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := by omega
    by_cases h1 : t.val % 8 = 7
    · rw [show (dats m 0 c).leavesExact 4 t = owns (c : Thread nD τ) (ms4 t) fullShare ((dats m 0 c).after 4 t) from by
        unfold Dat.leavesExact; rw [live_4 t ((isLast_iff t).mpr h1)], after_4]
      rw [holds_last m c t h0 h1]
      unfold resultLast totalLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ (fun h => h0 ((isFirst_iff t).mp h)) ((isLast_iff t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (coverLast c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLastOut c _ _ _ _ _ _ _ _ _ _ _ _ _ _ _ _ _ _ _ _)
    · rw [Dat.leavesExact_idle (dats m 0 c) 4 t (idle_4 t (fun h => h1 ((isLast_iff t).mp h))) (noFlush_4 t (fun h => h1 ((isLast_iff t).mp h)))]
      rw [holds_middle m c t h0 h1]
      unfold totalMiddle; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runMiddle c (grid0.coords t) _ _ _ _ _ _ _ _ _ _ _ _ (fun h => h0 ((isFirst_iff t).mp h)) (fun h => h1 ((isLast_iff t).mp h)) (iblk m c 0 t) (iblk m c 1 t) (iblk m c 2 t) (iblk m c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (coverMiddle c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
/-- Every weakly fair execution of the program terminates without a fault; afterwards every array of the
    pipeline holds what the proof data says and every other buffer what the host lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to the end and its four argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Acc

end
-- ==== Proof.K.Schedule.lean ====
/-
  The schedule of the squared-error accumulation over the grid of eight batch entries.
  The body branches twice on the grid coordinate: at the first point it clears the running total kept in the
  one-by-one scratch, and at the last point it copies that total into the one-by-one result block. Both
  conditions are decided here over the eight points, together with where the result window is idle (every
  point but the last) and where its block is written back (the last point only).
-/
import proofs.«150904_j52905407152940_2_alg».proof.Proof.KI.Total
import proofs.«150904_j52905407152940_2_alg».proof.Proof.Gen.Kernel.Launch
import proofs.«150904_j52905407152940_2_alg».proof.Proof.Gen.Kernel.Skeleton
import proofs.«150904_j52905407152940_2_alg».proof.Proof.Gen.Kernel.Points
import proofs.«150904_j52905407152940_2_alg».proof.Proof.Gen.Kernel.Loops
import proofs.«150904_j52905407152940_2_alg».proof.Proof.Gen.Kernel.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- "This is the first batch entry": the running total is cleared here. -/
abbrev isFirst (i : grid0.Coords) : Prop :=
  (Scalar.cmpi .ne (Scalar.extui (Scalar.cmpi .eq (BitVec.ofNat 32 (i 0).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- "This is the last batch entry": the total is copied to the result block here. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
/-- Away from the last point nothing is stored into the result block and it is not written back. -/
theorem idle_4 : ∀ t : Fin cfg0.N, ¬isLast (grid0.coords t) → cfg0.idle 4 (grid0.coords t) = true := by decide +kernel
theorem noFlush_4 : ∀ t : Fin cfg0.N, ¬isLast (grid0.coords t) → (cfg0.win 4).flush t = false := by decide +kernel
/-- At the last point the result block is stored. -/
theorem live_4 : ∀ t : Fin cfg0.N, isLast (grid0.coords t) → cfg0.idle 4 (grid0.coords t) = false := by decide +kernel

/-! ## The memrefs the body is called with -/

abbrev ms0 (t : Fin cfg0.N) : Memref sig .tc .vmem S1x4x256x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4x256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x16x256x256 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x16x256x256 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The scratch holding the running total. -/
abbrev scM : Memref sig .tc .vmem S1x1 .f32 := Memref.whole cc0_scratch0
abbrev VS : View sig .tc .vmem S1x1 .f32 := scM.view
/-- One staging buffer of the result window, through which its contents are stated. -/
abbrev VO : View sig .tc .vmem S1x1 .f32 := (Memref.whole cc0_stg4_0 : Memref sig .tc .vmem S1x1 .f32).view

/-- What the region may use beside its windows: the scratch at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Acc

end
-- ==== Proof.K.CaseFirst.lean ====
/-
  The body at the first batch entry. The running total is cleared, the sixteen mask slots of this entry are
  summed, and the total becomes zero plus that sum. Nothing is stored into the result block. What the scratch
  ends with is recorded as the list of its stores, which does not mention what the scratch held on entry.
-/
import proofs.«150904_j52905407152940_2_alg».proof.Proof.K.Schedule

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores into the scratch at the first point (last first), with the run of the body that leaves them: the
    four input blocks and the untouched result block are handed back as found. -/
noncomputable def runFirst (c : Dev nD) (i : grid0.Coords) (arg1 : Memref sig .tc .vmem S1x4x256x256 .f32) (harg1 : arg1.IsWhole) (arg2 : Memref sig .tc .vmem S1x4x256x256 .f32) (harg2 : arg2.IsWhole) (arg3 : Memref sig .tc .vmem S1x16x256x256 .i32) (harg3 : arg3.IsWhole) (arg4 : Memref sig .tc .vmem S1x16x256x256 .i32) (harg4 : arg4.IsWhole) (arg5 : Memref sig .tc .vmem S1x1 .f32) (harg5 : arg5.IsWhole) (arg6 : Memref sig .tc .vmem S1x1 .f32) (harg6 : arg6.IsWhole) (hc0 : isFirst i) (hc1 : ¬isLast i)
    (x0 x1 : Vec F S1x4x256x256 .f32) (x2 x3 : Vec F S1x16x256x256 .i32) :
    { LS : List (View.Piece (Elt F) S1x1 .f32) //
      ∀ (xs xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4 ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare xi4 ∗ (∃ f, arg6.view.loc (c : Thread nD τ) ↦[arg6.view.set]{fullShare} arg6.view.writes (Elt F) f LS)) -∗ K ⟨⟩))
          ⊢ wp frame (wpE (defs₀ (F := F)) Variants.none c none) E (cc0__mse_kernel i arg1 harg1 arg2 harg2 arg3 harg3 arg4 harg4 arg5 harg5 arg6 harg6) K } := by
  refine ⟨?_, fun xs xi4 E K => ?run⟩
  case run =>
    simp only [cc0__mse_kernel_eq_skeleton]; unfold cc0__mse_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

end Cert.Kernel.Acc

end
-- ==== Proof.K.CaseMiddle.lean ====
/-
  The body at a batch entry that is neither the first nor the last. The sixteen mask slots of this entry are
  summed and added to the running total the entry before left in the scratch. Nothing is stored into the
  result block.
-/
import proofs.«150904_j52905407152940_2_alg».proof.Proof.K.CaseFirst

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores into the scratch at a middle point (last first), over the total `xs` the point before left, with
    the run of the body that leaves them. -/
noncomputable def runMiddle (c : Dev nD) (i : grid0.Coords) (arg1 : Memref sig .tc .vmem S1x4x256x256 .f32) (harg1 : arg1.IsWhole) (arg2 : Memref sig .tc .vmem S1x4x256x256 .f32) (harg2 : arg2.IsWhole) (arg3 : Memref sig .tc .vmem S1x16x256x256 .i32) (harg3 : arg3.IsWhole) (arg4 : Memref sig .tc .vmem S1x16x256x256 .i32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : ¬isLast i)
    (x0 x1 : Vec F S1x4x256x256 .f32) (x2 x3 : Vec F S1x16x256x256 .i32) (xs : Vec F S1x1 .f32) :
    { LS : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4 ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare xi4 ∗ (∃ f, arg6.view.loc (c : Thread nD τ) ↦[arg6.view.set]{fullShare} arg6.view.writes (Elt F) f LS)) -∗ K ⟨⟩))
          ⊢ wp frame (wpE (defs₀ (F := F)) Variants.none c none) E (cc0__mse_kernel i arg1 harg1 arg2 harg2 arg3 harg3 arg4 harg4 arg5 harg5 arg6 harg6) K } := by
  refine ⟨?_, fun xi4 E K => ?run⟩
  case run =>
    simp only [cc0__mse_kernel_eq_skeleton]; unfold cc0__mse_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

end Cert.Kernel.Acc

end
-- ==== Proof.K.CaseLast.lean ====
/-
  The body at the last batch entry. The sixteen mask slots of this entry are summed and added to the running
  total, and the new total is copied into the result block.
-/
import proofs.«150904_j52905407152940_2_alg».proof.Proof.K.CaseMiddle

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores into the result block and into the scratch at the last point (last first), over the total `xs`
    the point before left, with the run of the body that leaves them. -/
noncomputable def runLast (c : Dev nD) (i : grid0.Coords) (arg1 : Memref sig .tc .vmem S1x4x256x256 .f32) (harg1 : arg1.IsWhole) (arg2 : Memref sig .tc .vmem S1x4x256x256 .f32) (harg2 : arg2.IsWhole) (arg3 : Memref sig .tc .vmem S1x16x256x256 .i32) (harg3 : arg3.IsWhole) (arg4 : Memref sig .tc .vmem S1x16x256x256 .i32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i)
    (x0 x1 : Vec F S1x4x256x256 .f32) (x2 x3 : Vec F S1x16x256x256 .i32) (xs : Vec F S1x1 .f32) :
    Σ' (L4 : List (View.Piece (Elt F) S1x1 .f32)), { LS : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0__mse_kernel i arg1 harg1 arg2 harg2 arg3 harg3 arg4 harg4 arg5 harg5 arg6 harg6) K } := by
  refine ⟨?_, ?_, fun E K => ?run⟩
  case run =>
    simp only [cc0__mse_kernel_eq_skeleton]; unfold cc0__mse_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2
    obtain rfl := harg4.eq_unread hf3; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

end Cert.Kernel.Acc

end
-- ==== Proof.K.Total.lean ====
/-
  The running total point by point, and the frame of the whole program.
  After the first batch entry the scratch holds what the first case's stores leave; after every later entry what
  the middle (or, at the eighth entry, the last) case's stores leave over the total of the entry before. The
  result block is stored at the eighth entry only, with the final total. From these the proof data of the one
  pipeline is assembled, the body is shown to meet it at every point by the case the point is in, and the
  program's run follows: it terminates, faults nowhere and leaves its four argument arrays as they were.
-/
import proofs.«150904_j52905407152940_2_alg».proof.Proof.K.CaseLast

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, read back from its stores -/

theorem coverFirst (c : Dev nD) (i : grid0.Coords) (arg1 : Memref sig .tc .vmem S1x4x256x256 .f32) (harg1 : arg1.IsWhole) (arg2 : Memref sig .tc .vmem S1x4x256x256 .f32) (harg2 : arg2.IsWhole) (arg3 : Memref sig .tc .vmem S1x16x256x256 .i32) (harg3 : arg3.IsWhole) (arg4 : Memref sig .tc .vmem S1x16x256x256 .i32) (harg4 : arg4.IsWhole) (arg5 : Memref sig .tc .vmem S1x1 .f32) (harg5 : arg5.IsWhole) (arg6 : Memref sig .tc .vmem S1x1 .f32) (harg6 : arg6.IsWhole) (hc0 : isFirst i) (hc1 : ¬isLast i)
    (x0 x1 : Vec F S1x4x256x256 .f32) (x2 x3 : Vec F S1x16x256x256 .i32) (y : S1x1.Idx) : ∃ pc ∈ (runFirst c i arg1 harg1 arg2 harg2 arg3 harg3 arg4 harg4 arg5 harg5 arg6 harg6 hc0 hc1 x0 x1 x2 x3).1, y ∈ pc.1.set :=
  View.cover_of_tiledL (runFirst c i arg1 harg1 arg2 harg2 arg3 harg3 arg4 harg4 arg5 harg5 arg6 harg6 hc0 hc1 x0 x1 x2 x3).1 S1x1.size (by sl_kernel_rfl) y

/-- The total after the first entry. -/
def totalFirst (c : Dev nD) (i : grid0.Coords) (arg1 : Memref sig .tc .vmem S1x4x256x256 .f32) (harg1 : arg1.IsWhole) (arg2 : Memref sig .tc .vmem S1x4x256x256 .f32) (harg2 : arg2.IsWhole) (arg3 : Memref sig .tc .vmem S1x16x256x256 .i32) (harg3 : arg3.IsWhole) (arg4 : Memref sig .tc .vmem S1x16x256x256 .i32) (harg4 : arg4.IsWhole) (arg5 : Memref sig .tc .vmem S1x1 .f32) (harg5 : arg5.IsWhole) (arg6 : Memref sig .tc .vmem S1x1 .f32) (harg6 : arg6.IsWhole) (hc0 : isFirst i) (hc1 : ¬isLast i)
    (x0 x1 : Vec F S1x4x256x256 .f32) (x2 x3 : Vec F S1x16x256x256 .i32) : Vec F S1x1 .f32 :=
  VS.read (Elt F) (VS.writes (Elt F) VS.junk (runFirst c i arg1 harg1 arg2 harg2 arg3 harg3 arg4 harg4 arg5 harg5 arg6 harg6 hc0 hc1 x0 x1 x2 x3).1)

theorem coverMiddle (c : Dev nD) (i : grid0.Coords) (arg1 : Memref sig .tc .vmem S1x4x256x256 .f32) (harg1 : arg1.IsWhole) (arg2 : Memref sig .tc .vmem S1x4x256x256 .f32) (harg2 : arg2.IsWhole) (arg3 : Memref sig .tc .vmem S1x16x256x256 .i32) (harg3 : arg3.IsWhole) (arg4 : Memref sig .tc .vmem S1x16x256x256 .i32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : ¬isLast i)
    (x0 x1 : Vec F S1x4x256x256 .f32) (x2 x3 : Vec F S1x16x256x256 .i32) (xs : Vec F S1x1 .f32) (y : S1x1.Idx) : ∃ pc ∈ (runMiddle c i arg1 harg1 arg2 harg2 arg3 harg3 arg4 harg4 arg5 harg5 arg6 harg6 hc0 hc1 x0 x1 x2 x3 xs).1, y ∈ pc.1.set :=
  View.cover_of_tiledL (runMiddle c i arg1 harg1 arg2 harg2 arg3 harg3 arg4 harg4 arg5 harg5 arg6 harg6 hc0 hc1 x0 x1 x2 x3 xs).1 S1x1.size (by sl_kernel_rfl) y

/-- The total after a middle entry, over the total `xs` before it. -/
def totalMiddle (c : Dev nD) (i : grid0.Coords) (arg1 : Memref sig .tc .vmem S1x4x256x256 .f32) (harg1 : arg1.IsWhole) (arg2 : Memref sig .tc .vmem S1x4x256x256 .f32) (harg2 : arg2.IsWhole) (arg3 : Memref sig .tc .vmem S1x16x256x256 .i32) (harg3 : arg3.IsWhole) (arg4 : Memref sig .tc .vmem S1x16x256x256 .i32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : ¬isLast i)
    (x0 x1 : Vec F S1x4x256x256 .f32) (x2 x3 : Vec F S1x16x256x256 .i32) (xs : Vec F S1x1 .f32) : Vec F S1x1 .f32 :=
  VS.read (Elt F) (VS.writes (Elt F) VS.junk (runMiddle c i arg1 harg1 arg2 harg2 arg3 harg3 arg4 harg4 arg5 harg5 arg6 harg6 hc0 hc1 x0 x1 x2 x3 xs).1)

theorem coverLastOut (c : Dev nD) (i : grid0.Coords) (arg1 : Memref sig .tc .vmem S1x4x256x256 .f32) (harg1 : arg1.IsWhole) (arg2 : Memref sig .tc .vmem S1x4x256x256 .f32) (harg2 : arg2.IsWhole) (arg3 : Memref sig .tc .vmem S1x16x256x256 .i32) (harg3 : arg3.IsWhole) (arg4 : Memref sig .tc .vmem S1x16x256x256 .i32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i)
    (x0 x1 : Vec F S1x4x256x256 .f32) (x2 x3 : Vec F S1x16x256x256 .i32) (xs : Vec F S1x1 .f32) (y : S1x1.Idx) : ∃ pc ∈ (runLast c i arg1 harg1 arg2 harg2 arg3 harg3 arg4 harg4 arg5 harg5 arg6 harg6 hc0 hc1 x0 x1 x2 x3 xs).1, y ∈ pc.1.set :=
  View.cover_of_tiledL (runLast c i arg1 harg1 arg2 harg2 arg3 harg3 arg4 harg4 arg5 harg5 arg6 harg6 hc0 hc1 x0 x1 x2 x3 xs).1 S1x1.size (by sl_kernel_rfl) y

/-- The result block after the last entry. -/
def resultLast (c : Dev nD) (i : grid0.Coords) (arg1 : Memref sig .tc .vmem S1x4x256x256 .f32) (harg1 : arg1.IsWhole) (arg2 : Memref sig .tc .vmem S1x4x256x256 .f32) (harg2 : arg2.IsWhole) (arg3 : Memref sig .tc .vmem S1x16x256x256 .i32) (harg3 : arg3.IsWhole) (arg4 : Memref sig .tc .vmem S1x16x256x256 .i32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i)
    (x0 x1 : Vec F S1x4x256x256 .f32) (x2 x3 : Vec F S1x16x256x256 .i32) (xs : Vec F S1x1 .f32) : Vec F S1x1 .f32 :=
  VO.read (Elt F) (VO.writes (Elt F) VO.junk (runLast c i arg1 harg1 arg2 harg2 arg3 harg3 arg4 harg4 arg5 harg5 arg6 harg6 hc0 hc1 x0 x1 x2 x3 xs).1)

theorem coverLast (c : Dev nD) (i : grid0.Coords) (arg1 : Memref sig .tc .vmem S1x4x256x256 .f32) (harg1 : arg1.IsWhole) (arg2 : Memref sig .tc .vmem S1x4x256x256 .f32) (harg2 : arg2.IsWhole) (arg3 : Memref sig .tc .vmem S1x16x256x256 .i32) (harg3 : arg3.IsWhole) (arg4 : Memref sig .tc .vmem S1x16x256x256 .i32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i)
    (x0 x1 : Vec F S1x4x256x256 .f32) (x2 x3 : Vec F S1x16x256x256 .i32) (xs : Vec F S1x1 .f32) (y : S1x1.Idx) : ∃ pc ∈ (runLast c i arg1 harg1 arg2 harg2 arg3 harg3 arg4 harg4 arg5 harg5 arg6 harg6 hc0 hc1 x0 x1 x2 x3 xs).2.1, y ∈ pc.1.set :=
  View.cover_of_tiledL (runLast c i arg1 harg1 arg2 harg2 arg3 harg3 arg4 harg4 arg5 harg5 arg6 harg6 hc0 hc1 x0 x1 x2 x3 xs).2.1 S1x1.size (by sl_kernel_rfl) y

/-- The total after the last entry. -/
def totalLast (c : Dev nD) (i : grid0.Coords) (arg1 : Memref sig .tc .vmem S1x4x256x256 .f32) (harg1 : arg1.IsWhole) (arg2 : Memref sig .tc .vmem S1x4x256x256 .f32) (harg2 : arg2.IsWhole) (arg3 : Memref sig .tc .vmem S1x16x256x256 .i32) (harg3 : arg3.IsWhole) (arg4 : Memref sig .tc .vmem S1x16x256x256 .i32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i)
    (x0 x1 : Vec F S1x4x256x256 .f32) (x2 x3 : Vec F S1x16x256x256 .i32) (xs : Vec F S1x1 .f32) : Vec F S1x1 .f32 :=
  VS.read (Elt F) (VS.writes (Elt F) VS.junk (runLast c i arg1 harg1 arg2 harg2 arg3 harg3 arg4 harg4 arg5 harg5 arg6 harg6 hc0 hc1 x0 x1 x2 x3 xs).2.1)

/-- A placeholder for the result block where nothing is stored into it: never consulted. -/
def noResult : Vec F S1x1 .f32 := VO.read (Elt F) (VO.writes (Elt F) VO.junk [])

/-! ## The total after each point -/

/-- After the body at position `n`: the result block's contents (a placeholder before the last point) and the
    running total in the scratch. -/
def holds (c : Dev nD) : (n : ℕ) → n < cfg0.N → Vec F S1x1 .f32 × Vec F S1x1 .f32
  | 0, hn => (noResult, totalFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((isFirst_iff ⟨0, hn⟩).mpr (Nat.zero_mod _)) (fun h => (fun h => by (try dsimp only at h); omega) ((isLast_iff ⟨0, hn⟩).mp h)) (iblk m c 0 ⟨0, hn⟩) (iblk m c 1 ⟨0, hn⟩) (iblk m c 2 ⟨0, hn⟩) (iblk m c 3 ⟨0, hn⟩))
  | n + 1, hn =>
    have hN : n + 1 < 8 := lt_of_lt_of_eq hn (show cfg0.N = 8 from N_0)
    if h1 : (n + 1) % 8 = 7 then
      (resultLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => (fun h => by (try dsimp only at h); omega) ((isFirst_iff ⟨n + 1, hn⟩).mp h)) ((isLast_iff ⟨n + 1, hn⟩).mpr h1) (iblk m c 0 ⟨n + 1, hn⟩) (iblk m c 1 ⟨n + 1, hn⟩) (iblk m c 2 ⟨n + 1, hn⟩) (iblk m c 3 ⟨n + 1, hn⟩) (holds c n (Nat.lt_of_succ_lt hn)).2,
       totalLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => (fun h => by (try dsimp only at h); omega) ((isFirst_iff ⟨n + 1, hn⟩).mp h)) ((isLast_iff ⟨n + 1, hn⟩).mpr h1) (iblk m c 0 ⟨n + 1, hn⟩) (iblk m c 1 ⟨n + 1, hn⟩) (iblk m c 2 ⟨n + 1, hn⟩) (iblk m c 3 ⟨n + 1, hn⟩) (holds c n (Nat.lt_of_succ_lt hn)).2)
    else
      (noResult, totalMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => (fun h => by (try dsimp only at h); omega) ((isFirst_iff ⟨n + 1, hn⟩).mp h)) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (holds c n (Nat.lt_of_succ_lt hn)).2)

theorem holds_first (c : Dev nD) (t : Fin cfg0.N) (h0 : t.val % 8 = 0) (h1 : ¬t.val % 8 = 7) :
    holds m c t.val t.isLt = (noResult, totalFirst c (grid0.coords t) (ms0 t) (hs0 t) (ms1 t) (hs1 t) (ms2 t) (hs2 t) (ms3 t) (hs3 t) (ms4 t) (hs4 t) scM (Memref.isWhole_whole _) ((isFirst_iff t).mpr h0) (fun h => h1 ((isLast_iff t).mp h)) (iblk m c 0 t) (iblk m c 1 t) (iblk m c 2 t) (iblk m c 3 t)) := by
  obtain ⟨n, hn⟩ := t
  have hN : n < 8 := lt_of_lt_of_eq hn (show cfg0.N = 8 from N_0)
  cases n with
  | zero => exact rfl
  | succ n => exfalso; (try dsimp only at h0); omega

theorem holds_middle (c : Dev nD) (t : Fin cfg0.N) (h0 : ¬t.val % 8 = 0) (h1 : ¬t.val % 8 = 7) :
    holds m c t.val t.isLt = (noResult, totalMiddle c (grid0.coords t) (ms0 t) (hs0 t) (ms1 t) (hs1 t) (ms2 t) (hs2 t) (ms3 t) (hs3 t) (ms4 t) (hs4 t) scM (Memref.isWhole_whole _) (fun h => h0 ((isFirst_iff t).mp h)) (fun h => h1 ((isLast_iff t).mp h)) (iblk m c 0 t) (iblk m c 1 t) (iblk m c 2 t) (iblk m c 3 t) (holds m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

theorem holds_last (c : Dev nD) (t : Fin cfg0.N) (h0 : ¬t.val % 8 = 0) (h1 : t.val % 8 = 7) :
    holds m c t.val t.isLt = (resultLast c (grid0.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk m c 0 t) (iblk m c 1 t) (iblk m c 2 t) (iblk m c 3 t) (holds m c (t.val - 1) (Nat.lt_of_le_of_lt (Nat.sub_le _ _) t.isLt)).2,
      totalLast c (grid0.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk m c 0 t) (iblk m c 1 t) (iblk m c 2 t) (iblk m c 3 t) (holds m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-! ## The invariant between points -/

/-- Before the first point the scratch holds anything; before any later point it holds the total so far. The
    generator register is at some state throughout. -/
def PhiS (c : Dev nD) : (n : ℕ) → n ≤ cfg0.N → sProp 𝕄
  | 0, _ => Pipeline.ΦA spec0 c
  | n + 1, hn => iprop(iprop(owns (c : Thread nD τ) scM fullShare ((holds m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((holds m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((holds m c (n - 1) (by omega)).2)) ∗ (∃ r, prngReg c r)) := by
  cases n with
  | zero => exact absurd rfl hz
  | succ n => rfl

/-! ## The proof data of the pipeline -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (holds m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (holds m c t.val t.isLt).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in (c : Dev nD) (t : Fin cfg0.N) :
    (dats m 0 c).leavesExact 0 t = owns (c : Thread nD τ) (ms0 t) fullShare (iblk m c 0 t)
    ∧ (dats m 0 c).leavesExact 1 t = owns (c : Thread nD τ) (ms1 t) fullShare (iblk m c 1 t)
    ∧ (dats m 0 c).leavesExact 2 t = owns (c : Thread nD τ) (ms2 t) fullShare (iblk m c 2 t)
    ∧ (dats m 0 c).leavesExact 3 t = owns (c : Thread nD τ) (ms3 t) fullShare (iblk m c 3 t) := by
  refine ⟨?_, ?_, ?_, ?_⟩
  · unfold Dat.leavesExact; rw [live_0 t, after_0]
  · unfold Dat.leavesExact; rw [live_1 t, after_1]
  · unfold Dat.leavesExact; rw [live_2 t, after_2]
  · unfold Dat.leavesExact; rw [live_3 t, after_3]

set_option maxHeartbeats 4800000 in
/-- The body at any point meets the proof data: the inputs' buffers hold their blocks; the point is in one of
    the three cases, whose run applies; the invariant hands the body the scratch at the total so far (at
    anything at the first point) and takes it back at the new total. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [(leaves_in m c t).1, (leaves_in m c t).2.1, (leaves_in m c t).2.2.1, (leaves_in m c t).2.2.2]
  have hN : t.val < 8 := lt_of_lt_of_eq t.isLt (show cfg0.N = 8 from N_0)
  by_cases h0 : t.val % 8 = 0
  · have h1 : ¬t.val % 8 = 7 := by omega
    have hz : t.val = 0 := by omega
    rw [Dat.leavesExact_idle (dats m 0 c) 4 t (idle_4 t (fun h => h1 ((isLast_iff t).mp h))) (noFlush_4 t (fun h => h1 ((isLast_iff t).mp h)))]
    rw [holds_first m c t h0 h1]
    unfold totalFirst; (try dsimp only)
    rw [PhiS_castSucc m c t, PhiS_zero m c _ _ hz, PhiA_eq]
    iintro ⟨⟨⟨%ds, HS⟩, Hg⟩, Ho, ⟨%d0, H0⟩, ⟨%d1, H1⟩, ⟨%d2, H2⟩, ⟨%d3, H3⟩, ⟨%d4, H4⟩⟩
    iapply ((runFirst c (grid0.coords t) _ _ _ _ _ _ _ _ _ _ _ _ ((isFirst_iff t).mpr h0) (fun h => h1 ((isLast_iff t).mp h)) (iblk m c 0 t) (iblk m c 1 t) (iblk m c 2 t) (iblk m c 3 t)).2 _ _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS Hg]
    · isplitl [HS]
      · unfold owns; iexists _; isplitr
        swap; · iexact HS
        ipureintro; exact View.read_writes_of_cover _ _ _ _ _ (coverFirst c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := by omega
    by_cases h1 : t.val % 8 = 7
    · rw [show (dats m 0 c).leavesExact 4 t = owns (c : Thread nD τ) (ms4 t) fullShare ((dats m 0 c).after 4 t) from by
        unfold Dat.leavesExact; rw [live_4 t ((isLast_iff t).mpr h1)], after_4]
      rw [holds_last m c t h0 h1]
      unfold resultLast totalLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ (fun h => h0 ((isFirst_iff t).mp h)) ((isLast_iff t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (coverLast c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLastOut c _ _ _ _ _ _ _ _ _ _ _ _ _ _ _ _ _ _ _ _)
    · rw [Dat.leavesExact_idle (dats m 0 c) 4 t (idle_4 t (fun h => h1 ((isLast_iff t).mp h))) (noFlush_4 t (fun h => h1 ((isLast_iff t).mp h)))]
      rw [holds_middle m c t h0 h1]
      unfold totalMiddle; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runMiddle c (grid0.coords t) _ _ _ _ _ _ _ _ _ _ _ _ (fun h => h0 ((isFirst_iff t).mp h)) (fun h => h1 ((isLast_iff t).mp h)) (iblk m c 0 t) (iblk m c 1 t) (iblk m c 2 t) (iblk m c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (coverMiddle c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
/-- Every weakly fair execution of the program terminates without a fault; afterwards every array of the
    pipeline holds what the proof data says and every other buffer what the host lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to the end and its four argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Acc

end
-- ==== Proof.KI.ReadBack.lean ====
/-
  What each case's stores leave, as values. At the first entry the scratch ends at (zero block) + (this entry's
  sixteen-slot sum); at a later entry at (the total before) + (this entry's sum); at the last entry the result
  block is a copy of that new total. The sixteen-slot sum is the value the loop carries out of its last trip.
-/
import proofs.«150904_j52905407152940_2_alg».proof.Proof.KI.Total
import Idealize.ShloMosaic.Lib.Pipeline.Value

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The sum over this entry's sixteen slots, as the loop carries it. -/
abbrev slots (c : Dev nD) (i : grid0.Coords) (arg1 : Memref sig .tc .vmem S1x4x256x256 .f32) (harg1 : arg1.IsWhole) (arg2 : Memref sig .tc .vmem S1x4x256x256 .f32) (harg2 : arg2.IsWhole) (arg3 : Memref sig .tc .vmem S1x16x256x256 .i32) (harg3 : arg3.IsWhole) (arg4 : Memref sig .tc .vmem S1x16x256x256 .i32) (harg4 : arg4.IsWhole) (arg5 : Memref sig .tc .vmem S1x1 .f32) (harg5 : arg5.IsWhole) (arg6 : Memref sig .tc .vmem S1x1 .f32) (harg6 : arg6.IsWhole) (x0 x1 : Vec F S1x4x256x256 .f32) (x2 x3 : Vec F S1x16x256x256 .i32) : FVec F S1x1 .f32 :=
  st_k0_t1 Variants.none c none i arg1 harg1 arg2 harg2 arg3 harg3 arg4 harg4 arg5 harg5 arg6 harg6 x0 x1 (harg3.unread x2) (harg4.unread x3) k0_pay2 (Scf.trips k0_t1_loop.lb k0_t1_loop.ub k0_t1_loop.st)

theorem totalFirst_eq (c : Dev nD) (i : grid0.Coords) (arg1 : Memref sig .tc .vmem S1x4x256x256 .f32) (harg1 : arg1.IsWhole) (arg2 : Memref sig .tc .vmem S1x4x256x256 .f32) (harg2 : arg2.IsWhole) (arg3 : Memref sig .tc .vmem S1x16x256x256 .i32) (harg3 : arg3.IsWhole) (arg4 : Memref sig .tc .vmem S1x16x256x256 .i32) (harg4 : arg4.IsWhole) (arg5 : Memref sig .tc .vmem S1x1 .f32) (harg5 : arg5.IsWhole) (arg6 : Memref sig .tc .vmem S1x1 .f32) (harg6 : arg6.IsWhole) (hc0 : isFirst i) (hc1 : ¬isLast i) (x0 x1 : Vec F S1x4x256x256 .f32) (x2 x3 : Vec F S1x16x256x256 .i32) :
    totalFirst c i arg1 harg1 arg2 harg2 arg3 harg3 arg4 harg4 arg5 harg5 arg6 harg6 hc0 hc1 x0 x1 x2 x3 = k0_pay4 (slots c i arg1 harg1 arg2 harg2 arg3 harg3 arg4 harg4 arg5 harg5 arg6 harg6 x0 x1 x2 x3) k0_pay1 := by
  unfold totalFirst
  rw [View.read_writes_eq_canon _ _ _ (coverFirst c i arg1 harg1 arg2 harg2 arg3 harg3 arg4 harg4 arg5 harg5 arg6 harg6 hc0 hc1 x0 x1 x2 x3)]
  unfold runFirst
  dsimp only
  sl_unfold_words
  rw [View.canon_cons_unit_zero (S := S1x1) hz2, View.readCov_unit_zero (S := S1x1) _ hz2]
  simp only [View.readAt_eq_ld, harg1.read_unread, harg2.read_unread, View.ld_unit_zero (S := S1x4x256x256) hz4]

theorem totalMiddle_eq (c : Dev nD) (i : grid0.Coords) (arg1 : Memref sig .tc .vmem S1x4x256x256 .f32) (harg1 : arg1.IsWhole) (arg2 : Memref sig .tc .vmem S1x4x256x256 .f32) (harg2 : arg2.IsWhole) (arg3 : Memref sig .tc .vmem S1x16x256x256 .i32) (harg3 : arg3.IsWhole) (arg4 : Memref sig .tc .vmem S1x16x256x256 .i32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : ¬isLast i) (x0 x1 : Vec F S1x4x256x256 .f32) (x2 x3 : Vec F S1x16x256x256 .i32) (xs : Vec F S1x1 .f32) :
    totalMiddle c i arg1 harg1 arg2 harg2 arg3 harg3 arg4 harg4 arg5 harg5 arg6 harg6 hc0 hc1 x0 x1 x2 x3 xs = k0_pay4 (slots c i arg1 harg1 arg2 harg2 arg3 harg3 arg4 harg4 arg5 harg5 arg6 harg6 x0 x1 x2 x3) xs := by
  unfold totalMiddle
  rw [View.read_writes_eq_canon _ _ _ (coverMiddle c i arg1 harg1 arg2 harg2 arg3 harg3 arg4 harg4 arg5 harg5 arg6 harg6 hc0 hc1 x0 x1 x2 x3 xs)]
  unfold runMiddle
  dsimp only
  sl_unfold_words
  rw [View.canon_unit_zero hz2]
  simp only [View.readAt_eq_ld, harg1.read_unread, harg2.read_unread, harg6.read_unread, View.ld_unit_zero (S := S1x4x256x256) hz4, View.ld_unit_zero (S := S1x1) hz2]

theorem totalLast_eq (c : Dev nD) (i : grid0.Coords) (arg1 : Memref sig .tc .vmem S1x4x256x256 .f32) (harg1 : arg1.IsWhole) (arg2 : Memref sig .tc .vmem S1x4x256x256 .f32) (harg2 : arg2.IsWhole) (arg3 : Memref sig .tc .vmem S1x16x256x256 .i32) (harg3 : arg3.IsWhole) (arg4 : Memref sig .tc .vmem S1x16x256x256 .i32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i) (x0 x1 : Vec F S1x4x256x256 .f32) (x2 x3 : Vec F S1x16x256x256 .i32) (xs : Vec F S1x1 .f32) :
    totalLast c i arg1 harg1 arg2 harg2 arg3 harg3 arg4 harg4 arg5 harg5 arg6 harg6 hc0 hc1 x0 x1 x2 x3 xs = k0_pay4 (slots c i arg1 harg1 arg2 harg2 arg3 harg3 arg4 harg4 arg5 harg5 arg6 harg6 x0 x1 x2 x3) xs := by
  unfold totalLast
  rw [View.read_writes_eq_canon _ _ _ (coverLast c i arg1 harg1 arg2 harg2 arg3 harg3 arg4 harg4 arg5 harg5 arg6 harg6 hc0 hc1 x0 x1 x2 x3 xs)]
  unfold runLast
  dsimp only
  sl_unfold_words
  rw [View.canon_unit_zero hz2]
  simp only [View.readAt_eq_ld, harg1.read_unread, harg2.read_unread, harg6.read_unread, View.ld_unit_zero (S := S1x4x256x256) hz4, View.ld_unit_zero (S := S1x1) hz2]

theorem resultLast_eq (c : Dev nD) (i : grid0.Coords) (arg1 : Memref sig .tc .vmem S1x4x256x256 .f32) (harg1 : arg1.IsWhole) (arg2 : Memref sig .tc .vmem S1x4x256x256 .f32) (harg2 : arg2.IsWhole) (arg3 : Memref sig .tc .vmem S1x16x256x256 .i32) (harg3 : arg3.IsWhole) (arg4 : Memref sig .tc .vmem S1x16x256x256 .i32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i) (x0 x1 : Vec F S1x4x256x256 .f32) (x2 x3 : Vec F S1x16x256x256 .i32) (xs : Vec F S1x1 .f32) :
    resultLast c i arg1 harg1 arg2 harg2 arg3 harg3 arg4 harg4 arg5 harg5 arg6 harg6 hc0 hc1 x0 x1 x2 x3 xs = k0_pay4 (slots c i arg1 harg1 arg2 harg2 arg3 harg3 arg4 harg4 arg5 harg5 arg6 harg6 x0 x1 x2 x3) xs := by
  unfold resultLast
  rw [View.read_writes_eq_canon _ _ _ (coverLastOut c i arg1 harg1 arg2 harg2 arg3 harg3 arg4 harg4 arg5 harg5 arg6 harg6 hc0 hc1 x0 x1 x2 x3 xs)]
  unfold runLast
  dsimp only
  sl_unfold_words
  rw [View.canon_unit_zero hz2, View.readCov_unit_zero (S := S1x1) _ hz2]
  simp only [View.readAt_eq_ld, harg1.read_unread, harg2.read_unread, harg6.read_unread, View.ld_unit_zero (S := S1x4x256x256) hz4, View.ld_unit_zero (S := S1x1) hz2]

end Cert.KernelIdeal.Acc
end
-- ==== Proof.KI.Slot.lean ====
/-
  One mask slot's contribution. For a block of four channels of a 256-by-256 image pair (pd, gt) and one slot's
  two mask planes, held as 32-bit words that are zero or not, the body forms
  (pd * [pm word is not zero] - gt * [gm word is not zero])^2 at every (channel, row, column), sums it over the
  channels, then over the columns, then over the rows, and adds the result to the value it carries. Read on the
  extended reals this is the carried value plus the triple sum; every format change is the identity there and each
  partial sum starts from the zero word, which is the real number zero.
-/
import proofs.«150904_j52905407152940_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Slot

open Cert.KernelIdeal Cert.KernelIdeal.Gen
open Idealize.ShloMosaic Idealize.ShloMosaic.ValueIdx

/-- A mask word as a number: one where the word is not zero, zero where it is. -/
def maskVal (p : BitVec 32) : EReal := FloatOps.sitofp (F := Ideal) .f32 ((IntOp.cmpi .ne p 0#32).setWidth 32)

/-- The squared masked difference at one position. -/
def sq (a b : EReal) (p q : BitVec 32) : EReal := (a * maskVal p - b * maskVal q) * (a * maskVal p - b * maskVal q)

/-! ## The layout steps at coordinates -/

/-- A column of 256 sums cast from [256] to [256, 1]. -/
theorem cast_col {α : Type} (x : S256.Idx → α) (h : S256.ShapeCasts S256x1) (r : Fin 256) (u : Fin 1) :
    shapeCast S256x1 x h (ix2 r u) = x (ix1 r) :=
  shapeCast_apply x h _ _ (by
    have hu : u.val = 0 := by omega
    rw [Shape.rowMajor_val_two, Shape.rowMajor_val_one]
    show r.val = r.val * 1 + u.val
    rw [hu]; omega)

/-- A mask plane loaded as [1, 1, 256, 256] and cast to [256, 256]. -/
theorem cast_plane {α : Type} (x : S1x1x256x256.Idx → α) (h : S1x1x256x256.ShapeCasts S256x256) (r c : Fin 256) :
    shapeCast S256x256 x h (ix2 r c) = x (ix4 (0 : Fin 1) (0 : Fin 1) r c) :=
  shapeCast_apply x h _ _ (by
    rw [Shape.rowMajor_val_four, Shape.rowMajor_val_two]
    show ((0 * 1 + 0) * 256 + r.val) * 256 + c.val = r.val * 256 + c.val
    omega)

/-- The one total cast from [1] to [1, 1]. -/
theorem cast_one {α : Type} (x : S1.Idx → α) (h : S1.ShapeCasts S1x1) (j : S1x1.Idx) :
    shapeCast S1x1 x h j = x (ix1 (0 : Fin 1)) :=
  shapeCast_apply x h _ _ (by
    have h0 : (j 0).val = 0 := by have := (j 0).isLt; simp at this; omega
    have h1 : (j 1).val = 0 := by have := (j 1).isLt; simp at this; omega
    rw [Shape.rowMajor_val_two, Shape.rowMajor_val_one]
    show 0 = (j 0).val * 1 + (j 1).val
    omega)

/-- A mask plane [1, 256, 256] repeated over the four channels. -/
theorem bcast_plane {α : Type} (x : S1x256x256.Idx → α) (h : S1x256x256.Broadcasts S4x256x256) (ch : Fin 4) (r c : Fin 256) :
    broadcastTo S4x256x256 x h (ix3 ch r c) = x (ix3 (0 : Fin 1) r c) :=
  broadcastTo_apply x h _ _ (fun a => match a with
    | ⟨0, _⟩ => by show (0 : Nat) = if (1 : Nat) = 1 then 0 else _; rw [if_pos rfl]
    | ⟨1, _⟩ => by show r.val = if (256 : Nat) = 1 then 0 else r.val; rw [if_neg (by decide)]
    | ⟨2, _⟩ => by show c.val = if (256 : Nat) = 1 then 0 else c.val; rw [if_neg (by decide)])

/-! ## The index a one-axis sum inserts -/

theorem lift_ch (h : S4x256x256.Reduces [0] S256x256) (r c : Fin 256) (k : Fin 4) : h.lift (ix2 r c) k = ix3 k r c :=
  funext fun a => Fin.ext (by match a with | ⟨0, _⟩ => rfl | ⟨1, _⟩ => rfl | ⟨2, _⟩ => rfl)

theorem lift_col (h : S256x256.Reduces [1] S256) (r : Fin 256) (k : Fin 256) : h.lift (ix1 r) k = ix2 r k :=
  funext fun a => Fin.ext (by match a with | ⟨0, _⟩ => rfl | ⟨1, _⟩ => rfl)

theorem lift_row (h : S256x1.Reduces [0] S1) (k : Fin 256) : h.lift (ix1 (0 : Fin 1)) k = ix2 k (0 : Fin 1) :=
  funext fun a => Fin.ext (by match a with | ⟨0, _⟩ => rfl | ⟨1, _⟩ => rfl)

/-- A sum over one axis started from the zero word, on the extended reals: the plain sum over that axis. -/
theorem sum_axis {s t : Shape} {a : Fin s.rank} (src : FVec Ideal s .f32) (h : s.Reduces [a] t) (hφ : FKind.Formats .f32)
    (hacc : (0x00000000#32 : BitVec 32) = 0x00000000#32) (j : t.Idx) :
    multiReduction .add [a] t src 0x00000000#32 h hφ hacc j = ∑ k : Fin (s.size a), src (h.lift j k) :=
  Ideal.multiReduction_add_single src 0x00000000#32 h hφ hacc j

/-! ## The slot's term -/

/-- The squares over a block, as the body computes them: channel by row by column. -/
def squares (v3 v5 : Vec Ideal S1x4x256x256 .f32) (v19 v25 : Vec Ideal S1x1x256x256 .i32) : FVec Ideal S4x256x256 .f32 :=
  let m1 : FVec Ideal S256x256 .f32 := sitofp .f32 (extui 32 (cmpi .ne (shapeCast S256x256 v19 Gen.shapeCasts_S1x1x256x256_S256x256 : IVec S256x256 32) (constantI S256x256 32 0#32)) Gen.natLt_1_32)
  let m2 : FVec Ideal S256x256 .f32 := sitofp .f32 (extui 32 (cmpi .ne (shapeCast S256x256 v25 Gen.shapeCasts_S1x1x256x256_S256x256 : IVec S256x256 32) (constantI S256x256 32 0#32)) Gen.natLt_1_32)
  let a : FVec Ideal S4x256x256 .f32 := mulf (shapeCast S4x256x256 v3 Gen.shapeCasts_S1x4x256x256_S4x256x256) (broadcastTo S4x256x256 (shapeCast S1x256x256 m1 Gen.shapeCasts_S256x256_S1x256x256) Gen.broadcasts_S1x256x256_S4x256x256)
  let b : FVec Ideal S4x256x256 .f32 := mulf (shapeCast S4x256x256 v5 Gen.shapeCasts_S1x4x256x256_S4x256x256) (broadcastTo S4x256x256 (shapeCast S1x256x256 m2 Gen.shapeCasts_S256x256_S1x256x256) Gen.broadcasts_S1x256x256_S4x256x256)
  mulf (subf a b) (subf a b)

theorem squares_apply (v3 v5 : Vec Ideal S1x4x256x256 .f32) (v19 v25 : Vec Ideal S1x1x256x256 .i32) (ch : Fin 4) (r c : Fin 256) :
    squares v3 v5 v19 v25 (ix3 ch r c)
      = sq (v3 (ix4 (0 : Fin 1) ch r c)) (v5 (ix4 (0 : Fin 1) ch r c)) (v19 (ix4 (0 : Fin 1) (0 : Fin 1) r c)) (v25 (ix4 (0 : Fin 1) (0 : Fin 1) r c)) := by
  unfold squares sq maskVal
  simp only [mulf_apply, subf_apply]
  rw [shapeCast_1abc_abc_apply, shapeCast_1abc_abc_apply, bcast_plane, bcast_plane,
    shapeCast_ab_1ab_apply, shapeCast_ab_1ab_apply]
  simp only [sitofp, extui, cmpi, constantI]
  rw [cast_plane, cast_plane]

/-- The slot's sum: channels first, then columns, then rows. -/
def slotTotal (v3 v5 : Vec Ideal S1x4x256x256 .f32) (v19 v25 : Vec Ideal S1x1x256x256 .i32) : EReal :=
  ∑ r : Fin 256, ∑ c : Fin 256, ∑ ch : Fin 4,
    sq (v3 (ix4 (0 : Fin 1) ch r c)) (v5 (ix4 (0 : Fin 1) ch r c)) (v19 (ix4 (0 : Fin 1) (0 : Fin 1) r c)) (v25 (ix4 (0 : Fin 1) (0 : Fin 1) r c))

/-- One trip's payload is the carried value plus the slot's sum. -/
theorem pay3_apply (v3 v5 : Vec Ideal S1x4x256x256 .f32) (acc : FVec Ideal S1x1 .f32) (v19 v25 : Vec Ideal S1x1x256x256 .i32) (j : S1x1.Idx) :
    k0_pay3 (F := Ideal) v3 v5 acc v19 v25 j = acc j + slotTotal v3 v5 v19 v25 := by
  have e : k0_pay3 (F := Ideal) v3 v5 acc v19 v25
      = addf acc (shapeCast S1x1 (multiReduction .add [0] S1 (shapeCast S256x1 (multiReduction .add [1] S256
          (multiReduction .add [0] S256x256 (squares v3 v5 v19 v25) 0x00000000#32 Gen.reduces_S4x256x256_S256x256 (.inl rfl) rfl)
          0x00000000#32 Gen.reduces_S256x256_S256 (.inl rfl) rfl) Gen.shapeCasts_S256_S256x1)
          0x00000000#32 Gen.reduces_S256x1_S1 (.inl rfl) rfl) Gen.shapeCasts_S1_S1x1) := rfl
  rw [e, addf_apply, cast_one, sum_axis]
  unfold slotTotal
  congr 1
  refine Finset.sum_congr rfl fun (r : Fin 256) _ => ?_
  rw [lift_row, cast_col, sum_axis]
  refine Finset.sum_congr rfl fun (c : Fin 256) _ => ?_
  rw [lift_col, sum_axis]
  refine Finset.sum_congr rfl fun (ch : Fin 4) _ => ?_
  rw [lift_ch, squares_apply]

end Cert.KernelIdeal.Slot

end
-- ==== Proof.KI.Entry.lean ====
/-
  One batch entry's sum. A trip of the loop over the sixteen mask slots loads slot k's two mask planes and adds
  that slot's sum to the value it carries, so after n trips the loop carries the sum of the first n slots, and
  after all sixteen the entry's sum: an induction over the trips, each trip read once from its run.
-/
import proofs.«150904_j52905407152940_2_alg».proof.Proof.KI.ReadBack
import proofs.«150904_j52905407152940_2_alg».proof.Proof.KI.Slot

set_option maxRecDepth 16384

noncomputable section

namespace Cert.KernelIdeal.Acc

open Cert.KernelIdeal Cert.KernelIdeal.Gen Cert.KernelIdeal.Slot
open Idealize.ShloMosaic Idealize.ShloMosaic.TcCoe Idealize.ShloMosaic.ValueIdx
open Idealize.SL.Sem
open Idealize.ShloMosaic.Pipeline (Dat)

theorem trips16 : k0_t1_loop.trips = 16 := by decide +kernel

/-- One trip yields the payload of its two loads: the mask planes of slot `k`. -/
theorem trip_eq {F : FTy → Type} [FloatOps F] (𝒱 : Variants) (c : Dev nD) (bd : Option 𝒱.V) (i : grid0.Coords) (arg1 : Memref sig .tc .vmem S1x4x256x256 .f32) (harg1 : arg1.IsWhole) (arg2 : Memref sig .tc .vmem S1x4x256x256 .f32) (harg2 : arg2.IsWhole) (arg3 : Memref sig .tc .vmem S1x16x256x256 .i32) (harg3 : arg3.IsWhole) (arg4 : Memref sig .tc .vmem S1x16x256x256 .i32) (harg4 : arg4.IsWhole) (arg5 : Memref sig .tc .vmem S1x1 .f32) (harg5 : arg5.IsWhole) (arg6 : Memref sig .tc .vmem S1x1 .f32) (harg6 : arg6.IsWhole) (v3 v5 : Vec F S1x4x256x256 .f32)
    (X3 : BufTy.Contents (Elt F) arg3.view.ty) (X4 : BufTy.Contents (Elt F) arg4.view.ty) (k : Fin k0_t1_loop.trips) (acc : FVec F S1x1 .f32) :
    tripR_k0_t1 (F := F) 𝒱 c bd i arg1 harg1 arg2 harg2 arg3 harg3 arg4 harg4 arg5 harg5 arg6 harg6 v3 v5 X3 X4 k acc
      = k0_pay3 v3 v5 acc
          (View.readAt (Elt F) arg3.view (Rect.unit (s := S1x16x256x256) (k0_off1 k) S1x1x256x256.size (k0_off1_inb k)).toLoadRect X3)
          (View.readAt (Elt F) arg4.view (Rect.unit (s := S1x16x256x256) (k0_off1 k) S1x1x256x256.size (k0_off1_inb k)).toLoadRect X4) := by
  unfold tripR_k0_t1
  unfold trip_k0_t1
  rfl

/-- A load of slot `k`'s plane from a block of sixteen planes reads the block at (0, k, row, column). -/
theorem slice_apply {F : FTy → Type} [FloatOps F] (arg : Memref sig .tc .vmem S1x16x256x256 .i32) (harg : arg.IsWhole) (x : Vec F S1x16x256x256 .i32)
    (k : Fin k0_t1_loop.trips) (hk : k.val < 16) (r c : Fin 256) :
    View.readAt (Elt F) arg.view (Rect.unit (s := S1x16x256x256) (k0_off1 k) S1x1x256x256.size (k0_off1_inb k)).toLoadRect (harg.unread x)
        (ix4 (0 : Fin 1) (0 : Fin 1) r c)
      = x (ix4 (0 : Fin 1) (⟨k.val, hk⟩ : Fin 16) r c) := by
  rw [View.readAt_eq_ld, harg.read_unread]
  show x _ = x _
  refine congrArg x (funext fun a => Fin.ext ?_)
  have e := k0_off1_eq k
  match a with
  | ⟨0, _⟩ => show k0_off1 k ⟨0, by decide⟩ + 1 * 0 = 0; rw [e]; rfl
  | ⟨1, _⟩ => show k0_off1 k ⟨1, by decide⟩ + 1 * 0 = k.val; rw [e]; rfl
  | ⟨2, _⟩ => show k0_off1 k ⟨2, by decide⟩ + 1 * r.val = r.val; rw [e]; show 0 + 1 * r.val = r.val; omega
  | ⟨3, _⟩ => show k0_off1 k ⟨3, by decide⟩ + 1 * c.val = c.val; rw [e]; show 0 + 1 * c.val = c.val; omega

/-! ## One entry's sixteen slots -/

/-- Slot `k`'s sum over a block of four channels and a block of sixteen mask planes. -/
def slotOf (x0 x1 : Vec Ideal S1x4x256x256 .f32) (x2 x3 : Vec Ideal S1x16x256x256 .i32) (k : Fin 16) : EReal :=
  ∑ r : Fin 256, ∑ c : Fin 256, ∑ ch : Fin 4,
    sq (x0 (ix4 (0 : Fin 1) ch r c)) (x1 (ix4 (0 : Fin 1) ch r c)) (x2 (ix4 (0 : Fin 1) k r c)) (x3 (ix4 (0 : Fin 1) k r c))

def slotN (x0 x1 : Vec Ideal S1x4x256x256 .f32) (x2 x3 : Vec Ideal S1x16x256x256 .i32) (k : ℕ) : EReal :=
  if h : k < 16 then slotOf x0 x1 x2 x3 ⟨k, h⟩ else 0

/-- The entry's sum. -/
def entrySum (x0 x1 : Vec Ideal S1x4x256x256 .f32) (x2 x3 : Vec Ideal S1x16x256x256 .i32) : EReal :=
  ∑ k : Fin 16, slotOf x0 x1 x2 x3 k

theorem pay2_apply (j : S1x1.Idx) : k0_pay2 (F := Ideal) j = 0 := Ideal.ofBits_zero_f32
theorem pay1_apply (j : S1x1.Idx) : k0_pay1 (F := Ideal) j = 0 := by
  unfold k0_pay1; rw [shapeCast_self]; exact Ideal.ofBits_zero_f32
theorem pay4_apply (v9 : FVec Ideal S1x1 .f32) (v10 : Vec Ideal S1x1 .f32) (j : S1x1.Idx) : k0_pay4 (F := Ideal) v9 v10 j = v10 j + v9 j := by
  unfold k0_pay4; rw [shapeCast_self]; rfl

/-- After `n` trips the loop carries the sum of the first `n` slots. -/
theorem st_apply (c : Dev nD) (i : grid0.Coords) (arg1 : Memref sig .tc .vmem S1x4x256x256 .f32) (harg1 : arg1.IsWhole) (arg2 : Memref sig .tc .vmem S1x4x256x256 .f32) (harg2 : arg2.IsWhole) (arg3 : Memref sig .tc .vmem S1x16x256x256 .i32) (harg3 : arg3.IsWhole) (arg4 : Memref sig .tc .vmem S1x16x256x256 .i32) (harg4 : arg4.IsWhole) (arg5 : Memref sig .tc .vmem S1x1 .f32) (harg5 : arg5.IsWhole) (arg6 : Memref sig .tc .vmem S1x1 .f32) (harg6 : arg6.IsWhole) (x0 x1 : Vec Ideal S1x4x256x256 .f32) (x2 x3 : Vec Ideal S1x16x256x256 .i32) (j : S1x1.Idx) :
    ∀ n : ℕ, n ≤ 16 →
      st_k0_t1 (F := Ideal) Variants.none c none i arg1 harg1 arg2 harg2 arg3 harg3 arg4 harg4 arg5 harg5 arg6 harg6 x0 x1 (harg3.unread x2) (harg4.unread x3) k0_pay2 n j
        = ∑ k ∈ Finset.range n, slotN x0 x1 x2 x3 k
  | 0, _ => by rw [Finset.range_zero, Finset.sum_empty]; exact pay2_apply j
  | n + 1, hn => by
    have hlt : n < k0_t1_loop.trips := by rw [trips16]; omega
    have h16 : n < 16 := by omega
    have e := st_k0_t1_succ (F := Ideal) Variants.none c none i arg1 harg1 arg2 harg2 arg3 harg3 arg4 harg4 arg5 harg5 arg6 harg6 x0 x1 (harg3.unread x2) (harg4.unread x3) k0_pay2 ⟨n, hlt⟩
    rw [show n + 1 = (⟨n, hlt⟩ : Fin k0_t1_loop.trips).val + 1 from rfl, e, trip_eq, pay3_apply, st_apply c i arg1 harg1 arg2 harg2 arg3 harg3 arg4 harg4 arg5 harg5 arg6 harg6 x0 x1 x2 x3 j n (by omega),
      Finset.sum_range_succ]
    congr 1
    unfold slotTotal slotN
    rw [dif_pos h16]
    unfold slotOf
    refine Finset.sum_congr rfl fun (r : Fin 256) _ => Finset.sum_congr rfl fun (cc : Fin 256) _ => Finset.sum_congr rfl fun (ch : Fin 4) _ => ?_
    rw [slice_apply arg3 harg3 x2 ⟨n, hlt⟩ h16 r cc, slice_apply arg4 harg4 x3 ⟨n, hlt⟩ h16 r cc]

theorem slots_apply (c : Dev nD) (i : grid0.Coords) (arg1 : Memref sig .tc .vmem S1x4x256x256 .f32) (harg1 : arg1.IsWhole) (arg2 : Memref sig .tc .vmem S1x4x256x256 .f32) (harg2 : arg2.IsWhole) (arg3 : Memref sig .tc .vmem S1x16x256x256 .i32) (harg3 : arg3.IsWhole) (arg4 : Memref sig .tc .vmem S1x16x256x256 .i32) (harg4 : arg4.IsWhole) (arg5 : Memref sig .tc .vmem S1x1 .f32) (harg5 : arg5.IsWhole) (arg6 : Memref sig .tc .vmem S1x1 .f32) (harg6 : arg6.IsWhole) (x0 x1 : Vec Ideal S1x4x256x256 .f32) (x2 x3 : Vec Ideal S1x16x256x256 .i32) (j : S1x1.Idx) :
    slots (F := Ideal) c i arg1 harg1 arg2 harg2 arg3 harg3 arg4 harg4 arg5 harg5 arg6 harg6 x0 x1 x2 x3 j = entrySum x0 x1 x2 x3 := by
  unfold slots entrySum
  rw [show Scf.trips k0_t1_loop.lb k0_t1_loop.ub k0_t1_loop.st = 16 from trips16, st_apply c i arg1 harg1 arg2 harg2 arg3 harg3 arg4 harg4 arg5 harg5 arg6 harg6 x0 x1 x2 x3 j 16 le_rfl,
    ← Fin.sum_univ_eq_sum_range (fun k => slotN x0 x1 x2 x3 k) 16]
  refine Finset.sum_congr rfl fun k _ => ?_
  unfold slotN
  rw [dif_pos k.isLt]

end Cert.KernelIdeal.Acc
end
-- ==== Proof.Spec.lean ====
/-
  The masked mean-squared error as one finite sum, and the two facts that join the kernel's arrangement of it to
  the reference's.
  A mask entry is one bit; as a number it is 0 or 1. The reference converts the bit to a float directly. The kernel
  first widens it to a 32-bit word on the host, then inside the body compares the word with zero, widens the answer
  to a word again and reads that word as a signed integer: the same number.
  The reference sums the squares over one five-axis index (entry, slot, channel, row, column). The kernel sums over
  channels innermost, then columns, rows, slots and entries. On the extended reals addition is commutative and
  associative, so the two are equal: a bijection of the index set with the five-fold product, and two exchanges of
  neighbouring sums. Nothing here needs the summands to be finite.
-/
import Idealize.ShloMosaic.Lib.ValueIdx
import Idealize.ShloMosaic.PureOps.Ideal.Laws

noncomputable section

namespace Cert.MaskedMse

open Idealize.ShloMosaic Idealize.ShloMosaic.ValueIdx

/-- A mask bit as a number. -/
def bitVal (b : BitVec 1) : EReal := FloatOps.uitofp (F := Ideal) .f32 b

/-- The kernel's reading of a mask bit through 32-bit words is the bit as a number. -/
theorem word_eq_bit (b : BitVec 1) :
    FloatOps.sitofp (F := Ideal) .f32 ((IntOp.cmpi .ne (b.setWidth 32) 0#32).setWidth 32) = bitVal b := by
  rcases BitVec.eq_zero_or_eq_one b with h | h <;> subst h
  · have e : (IntOp.cmpi .ne ((0#1 : BitVec 1).setWidth 32) 0#32).setWidth 32 = (0#32 : BitVec 32) := by decide
    rw [e]
    show (((0#32 : BitVec 32).toInt : ℝ) : EReal) = (((0#1 : BitVec 1).toNat : ℝ) : EReal)
    have a : (0#32 : BitVec 32).toInt = 0 := by decide
    have b : (0#1 : BitVec 1).toNat = 0 := by decide
    rw [a, b]; simp
  · have e : (IntOp.cmpi .ne ((1#1 : BitVec 1).setWidth 32) 0#32).setWidth 32 = (1#32 : BitVec 32) := by decide
    rw [e]
    show (((1#32 : BitVec 32).toInt : ℝ) : EReal) = (((1#1 : BitVec 1).toNat : ℝ) : EReal)
    have a : (1#32 : BitVec 32).toInt = 1 := by decide
    have b : (1#1 : BitVec 1).toNat = 1 := by decide
    rw [a, b]; simp

/-- The squared masked difference at one position. -/
def term (a b : EReal) (p q : BitVec 1) : EReal := (a * bitVal p - b * bitVal q) * (a * bitVal p - b * bitVal q)

/-- The whole sum, innermost over channels, then columns, rows, slots, entries. -/
def total (x0 x1 : (⟨4, ![8, 4, 256, 256]⟩ : Shape).Idx → EReal) (x2 x3 : (⟨4, ![8, 16, 256, 256]⟩ : Shape).Idx → BitVec 1) : EReal :=
  ∑ t : Fin 8, ∑ k : Fin 16, ∑ r : Fin 256, ∑ c : Fin 256, ∑ ch : Fin 4,
    term (x0 (ix4 t ch r c)) (x1 (ix4 t ch r c)) (x2 (ix4 t k r c)) (x3 (ix4 t k r c))

/-- The mean as both programs end it: the whole sum divided, by the host's division, by the word 0x4C000000
    (2^25, the number of summands). The division is never opened: both sides apply it to the same two numbers. -/
def mean (x0 x1 : (⟨4, ![8, 4, 256, 256]⟩ : Shape).Idx → EReal) (x2 x3 : (⟨4, ![8, 16, 256, 256]⟩ : Shape).Idx → BitVec 1) :
    (⟨0, ![]⟩ : Shape).Idx → EReal :=
  fun _ => FloatOps.hostDivf (F := Ideal) (φ := .f32) (total x0 x1 x2 x3) (FloatOps.ofBits (F := Ideal) .f32 0x4C000000#32)

/-- A rank-5 index set is the product of its five coordinate ranges … -/
def idxEquiv5 {n0 n1 n2 n3 n4 : Nat} : (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

/-- … so a sum over it is the five-fold sum over the coordinates. -/
theorem sum_idx5 {M : Type*} [AddCommMonoid M] {n0 n1 n2 n3 n4 : Nat} (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f]
  simp only [Fintype.sum_prod_type]
  rfl

/-- The reference's one sum over (entry, slot, channel, row, column) is the kernel's nested sum. -/
theorem flat_eq_total (x0 x1 : (⟨4, ![8, 4, 256, 256]⟩ : Shape).Idx → EReal) (x2 x3 : (⟨4, ![8, 16, 256, 256]⟩ : Shape).Idx → BitVec 1) :
    (∑ j : (⟨5, ![8, 16, 4, 256, 256]⟩ : Shape).Idx,
        term (x0 (ix4 (j 0) (j 2) (j 3) (j 4))) (x1 (ix4 (j 0) (j 2) (j 3) (j 4))) (x2 (ix4 (j 0) (j 1) (j 3) (j 4))) (x3 (ix4 (j 0) (j 1) (j 3) (j 4))))
      = total x0 x1 x2 x3 := by
  rw [sum_idx5]
  unfold total
  refine Finset.sum_congr rfl fun t _ => Finset.sum_congr rfl fun k _ => ?_
  rw [Finset.sum_comm]
  refine Finset.sum_congr rfl fun r _ => ?_
  rw [Finset.sum_comm]

end Cert.MaskedMse

end
-- ==== Proof.KI.Result.lean ====
/-
  The idealized kernel's result. By induction over the eight grid points the scratch holds, after point n, the sum
  of the first n+1 entries' sums, and at the last point the result block is stored with the full total. Each
  window's block at point t is entry t of its array (the mask windows read the host's widened copy of the bit
  arrays), so the total is the specification's nested sum over the argument arrays. The result array is its one
  block, written back once after the last point; the host then reshapes it to a scalar and divides by 2^25.
-/
import proofs.«150904_j52905407152940_2_alg».proof.Proof.KI.Entry
import proofs.«150904_j52905407152940_2_alg».proof.Proof.Spec
import Idealize.ShloMosaic.Lib.StableHlo.Run
import Idealize.ShloMosaic.Lib.Pipeline.Value

set_option maxRecDepth 16384

noncomputable section

namespace Cert.KernelIdeal.Acc

open Cert.KernelIdeal Cert.KernelIdeal.Gen Cert.KernelIdeal.Slot
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- Entry `t`'s sum, over the four blocks the windows hold at point `t`. -/
def entryAt (c : Dev nD) (t : ℕ) : EReal :=
  if h : t < cfg0.N then entrySum (iblk m c 0 ⟨t, h⟩) (iblk m c 1 ⟨t, h⟩) (iblk m c 2 ⟨t, h⟩) (iblk m c 3 ⟨t, h⟩) else 0

/-- After point `n` the scratch holds the sum of the entries up to `n`. -/
theorem total_apply (c : Dev nD) (j : S1x1.Idx) : ∀ (n : ℕ) (hn : n < cfg0.N),
    (holds (F := Ideal) m c n hn).2 j = ∑ t ∈ Finset.range (n + 1), entryAt m c t
  | 0, hn => by
    rw [holds_first m c ⟨0, hn⟩ rfl (by dsimp only; omega)]
    dsimp only
    rw [totalFirst_eq, pay4_apply, pay1_apply, slots_apply, zero_add, Finset.sum_range_one]
    unfold entryAt; rw [dif_pos hn]
  | n + 1, hn => by
    have hN : cfg0.N = 8 := N_0
    have h0 : ¬(⟨n + 1, hn⟩ : Fin cfg0.N).val % 8 = 0 := by dsimp only; omega
    have ih := total_apply c j n (Nat.lt_of_succ_lt hn)
    by_cases h1 : (⟨n + 1, hn⟩ : Fin cfg0.N).val % 8 = 7
    · rw [holds_last m c ⟨n + 1, hn⟩ h0 h1]
      dsimp only
      rw [totalLast_eq, pay4_apply, slots_apply]
      show (holds m c n _).2 j + _ = _
      rw [ih, Finset.sum_range_succ _ (n + 1)]
      unfold entryAt; rw [dif_pos hn]
    · rw [holds_middle m c ⟨n + 1, hn⟩ h0 h1]
      dsimp only
      rw [totalMiddle_eq, pay4_apply, slots_apply]
      show (holds m c n _).2 j + _ = _
      rw [ih, Finset.sum_range_succ _ (n + 1)]
      unfold entryAt; rw [dif_pos hn]

/-- At the last point the result block is stored with the same total. -/
theorem result_apply (c : Dev nD) (j : S1x1.Idx) (h7 : 7 < cfg0.N) :
    (holds (F := Ideal) m c 7 h7).1 j = ∑ t ∈ Finset.range 8, entryAt m c t := by
  have h0 : ¬(⟨7, h7⟩ : Fin cfg0.N).val % 8 = 0 := by dsimp only; omega
  have h1 : (⟨7, h7⟩ : Fin cfg0.N).val % 8 = 7 := by dsimp only
  rw [holds_last m c ⟨7, h7⟩ h0 h1]
  dsimp only
  rw [resultLast_eq, pay4_apply, slots_apply]
  show (holds m c 6 _).2 j + _ = _
  rw [total_apply m c j 6 _, Finset.sum_range_succ _ 7]
  unfold entryAt; rw [dif_pos h7]

/-! ## The blocks are entries of the argument arrays -/

theorem index_0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)
theorem index_1 : ∀ t : Fin cfg0.N, win0_1.index t 0 = t.val ∧ win0_1.index t 1 = 0 ∧ win0_1.index t 2 = 0 ∧ win0_1.index t 3 = 0 :=
  (by decide +kernel : ∀ t : Fin grid0.N, win0_1.index t 0 = t.val ∧ win0_1.index t 1 = 0 ∧ win0_1.index t 2 = 0 ∧ win0_1.index t 3 = 0)
theorem index_2 : ∀ t : Fin cfg0.N, win0_2.index t 0 = t.val ∧ win0_2.index t 1 = 0 ∧ win0_2.index t 2 = 0 ∧ win0_2.index t 3 = 0 :=
  (by decide +kernel : ∀ t : Fin grid0.N, win0_2.index t 0 = t.val ∧ win0_2.index t 1 = 0 ∧ win0_2.index t 2 = 0 ∧ win0_2.index t 3 = 0)
theorem index_3 : ∀ t : Fin cfg0.N, win0_3.index t 0 = t.val ∧ win0_3.index t 1 = 0 ∧ win0_3.index t 2 = 0 ∧ win0_3.index t 3 = 0 :=
  (by decide +kernel : ∀ t : Fin grid0.N, win0_3.index t 0 = t.val ∧ win0_3.index t 1 = 0 ∧ win0_3.index t 2 = 0 ∧ win0_3.index t 3 = 0)

/-- Block `t` of pd at (0, channel, row, column) is pd at (t, channel, row, column). -/
theorem iblk0_apply (c : Dev nD) (t : Fin cfg0.N) (ht : t.val < 8) (ch : Fin 4) (r cc : Fin 256) :
    (iblk m c 0 t : Vec Ideal S1x4x256x256 .f32) (ix4 (0 : Fin 1) ch r cc)
      = m ((c : Thread nD τ).loc main_arg0) (ix4 (⟨t.val, ht⟩ : Fin 8) ch r cc) := by
  unfold iblk
  rw [View.read_apply]
  show V m c main_arg0 _ = _
  rw [V_main_arg0]
  refine congrArg (m ((c : Thread nD τ).loc main_arg0)) (funext fun a => Fin.ext ?_)
  have hi := index_0 t
  match a with
  | ⟨0, _⟩ => show win0_0.index t 0 * 1 + 1 * 0 = t.val; rw [hi.1]; omega
  | ⟨1, _⟩ => show win0_0.index t 1 * 4 + 1 * ch.val = ch.val; rw [hi.2.1]; omega
  | ⟨2, _⟩ => show win0_0.index t 2 * 256 + 1 * r.val = r.val; rw [hi.2.2.1]; omega
  | ⟨3, _⟩ => show win0_0.index t 3 * 256 + 1 * cc.val = cc.val; rw [hi.2.2.2]; omega

/-- Block `t` of gt likewise. -/
theorem iblk1_apply (c : Dev nD) (t : Fin cfg0.N) (ht : t.val < 8) (ch : Fin 4) (r cc : Fin 256) :
    (iblk m c 1 t : Vec Ideal S1x4x256x256 .f32) (ix4 (0 : Fin 1) ch r cc)
      = m ((c : Thread nD τ).loc main_arg1) (ix4 (⟨t.val, ht⟩ : Fin 8) ch r cc) := by
  unfold iblk
  rw [View.read_apply]
  show V m c main_arg1 _ = _
  rw [V_main_arg1]
  refine congrArg (m ((c : Thread nD τ).loc main_arg1)) (funext fun a => Fin.ext ?_)
  have hi := index_1 t
  match a with
  | ⟨0, _⟩ => show win0_1.index t 0 * 1 + 1 * 0 = t.val; rw [hi.1]; omega
  | ⟨1, _⟩ => show win0_1.index t 1 * 4 + 1 * ch.val = ch.val; rw [hi.2.1]; omega
  | ⟨2, _⟩ => show win0_1.index t 2 * 256 + 1 * r.val = r.val; rw [hi.2.2.1]; omega
  | ⟨3, _⟩ => show win0_1.index t 3 * 256 + 1 * cc.val = cc.val; rw [hi.2.2.2]; omega

/-- The host widens each mask bit to a 32-bit word before the region. -/
theorem V_pm (c : Dev nD) : (V m c main_v0 : S8x16x256x256.Idx → BitVec 32) = extui 32 (m ((c : Thread nD τ).loc main_arg2)) Gen.natLt_1_32 := by
  show StableHlo.after hostOps0 (fun b => m (c, b)) (Proc.devRef .tc main_v0) = _
  after_results
theorem V_gm (c : Dev nD) : (V m c main_v1 : S8x16x256x256.Idx → BitVec 32) = extui 32 (m ((c : Thread nD τ).loc main_arg3)) Gen.natLt_1_32 := by
  show StableHlo.after hostOps0 (fun b => m (c, b)) (Proc.devRef .tc main_v1) = _
  after_results

/-- Block `t` of the widened pd mask at (0, slot, row, column) is the mask bit at (t, slot, row, column), widened. -/
theorem iblk2_apply (c : Dev nD) (t : Fin cfg0.N) (ht : t.val < 8) (k : Fin 16) (r cc : Fin 256) :
    (iblk m c 2 t : Vec Ideal S1x16x256x256 .i32) (ix4 (0 : Fin 1) k r cc)
      = (m ((c : Thread nD τ).loc main_arg2) (ix4 (⟨t.val, ht⟩ : Fin 8) k r cc)).setWidth 32 := by
  unfold iblk
  rw [View.read_apply]
  show V m c main_v0 _ = _
  rw [V_pm]
  show (m ((c : Thread nD τ).loc main_arg2) _).setWidth 32 = _
  refine congrArg (fun z => (m ((c : Thread nD τ).loc main_arg2) z).setWidth 32) (funext fun a => Fin.ext ?_)
  have hi := index_2 t
  match a with
  | ⟨0, _⟩ => show win0_2.index t 0 * 1 + 1 * 0 = t.val; rw [hi.1]; omega
  | ⟨1, _⟩ => show win0_2.index t 1 * 16 + 1 * k.val = k.val; rw [hi.2.1]; omega
  | ⟨2, _⟩ => show win0_2.index t 2 * 256 + 1 * r.val = r.val; rw [hi.2.2.1]; omega
  | ⟨3, _⟩ => show win0_2.index t 3 * 256 + 1 * cc.val = cc.val; rw [hi.2.2.2]; omega

theorem iblk3_apply (c : Dev nD) (t : Fin cfg0.N) (ht : t.val < 8) (k : Fin 16) (r cc : Fin 256) :
    (iblk m c 3 t : Vec Ideal S1x16x256x256 .i32) (ix4 (0 : Fin 1) k r cc)
      = (m ((c : Thread nD τ).loc main_arg3) (ix4 (⟨t.val, ht⟩ : Fin 8) k r cc)).setWidth 32 := by
  unfold iblk
  rw [View.read_apply]
  show V m c main_v1 _ = _
  rw [V_gm]
  show (m ((c : Thread nD τ).loc main_arg3) _).setWidth 32 = _
  refine congrArg (fun z => (m ((c : Thread nD τ).loc main_arg3) z).setWidth 32) (funext fun a => Fin.ext ?_)
  have hi := index_3 t
  match a with
  | ⟨0, _⟩ => show win0_3.index t 0 * 1 + 1 * 0 = t.val; rw [hi.1]; omega
  | ⟨1, _⟩ => show win0_3.index t 1 * 16 + 1 * k.val = k.val; rw [hi.2.1]; omega
  | ⟨2, _⟩ => show win0_3.index t 2 * 256 + 1 * r.val = r.val; rw [hi.2.2.1]; omega
  | ⟨3, _⟩ => show win0_3.index t 3 * 256 + 1 * cc.val = cc.val; rw [hi.2.2.2]; omega

/-- So the eight entries' sums are the whole sum over the argument arrays. -/
theorem entries_eq_total (c : Dev nD) :
    ∑ t ∈ Finset.range 8, entryAt m c t
      = Cert.MaskedMse.total (m ((c : Thread nD τ).loc main_arg0)) (m ((c : Thread nD τ).loc main_arg1))
          (m ((c : Thread nD τ).loc main_arg2)) (m ((c : Thread nD τ).loc main_arg3)) := by
  have hN : cfg0.N = 8 := N_0
  rw [← Fin.sum_univ_eq_sum_range (fun t => entryAt m c t) 8]
  unfold Cert.MaskedMse.total
  refine Finset.sum_congr rfl fun (t : Fin 8) _ => ?_
  have ht : t.val < cfg0.N := by rw [hN]; exact t.isLt
  unfold entryAt
  rw [dif_pos ht]
  unfold entrySum
  refine Finset.sum_congr rfl fun (k : Fin 16) _ => ?_
  unfold slotOf
  refine Finset.sum_congr rfl fun (r : Fin 256) _ => Finset.sum_congr rfl fun (cc : Fin 256) _ => Finset.sum_congr rfl fun (ch : Fin 4) _ => ?_
  rw [iblk0_apply m c ⟨t.val, ht⟩ t.isLt, iblk1_apply m c ⟨t.val, ht⟩ t.isLt, iblk2_apply m c ⟨t.val, ht⟩ t.isLt, iblk3_apply m c ⟨t.val, ht⟩ t.isLt]
  unfold Slot.sq Cert.MaskedMse.term maskVal
  rw [Cert.MaskedMse.word_eq_bit, Cert.MaskedMse.word_eq_bit]

/-- The result array after the run: what the last point stored into its one block. -/
abbrev result (c : Dev nD) : Buf (Elt Ideal) ((c : Thread nD τ).loc main_v2) :=
  (holds (F := Ideal) m c 7 (by rw [show cfg0.N = 8 from N_0]; decide)).1

theorem flushed_eq (c : Dev nD) (t : Fin cfg0.N) (hf : (cfg0.win 4).flush t = true) :
    (dats m 0 c).flushed 4 t = ((cfg0.win 4).blk t).view.read (Elt Ideal) (result m c) := by
  have hN : cfg0.N = 8 := N_0
  have h7 : t.val = 7 := by have := (flush0_4 t).mp hf; have := t.isLt; omega
  obtain rfl : t = t0_7 := Fin.ext h7
  show (cfg0.win 4).cut (grid0.coords t0_7) ((dats m 0 c).after 4 t0_7) = _
  rw [after_4]
  have hz' : (fun a => win0_4.index t0_7 a * main_v2.ty.shape.size a) = fun _ => 0 := funext fun a => by fin_cases a <;> decide
  exact (Memref.read_access_unit_zero (Elt Ideal) main_v2 hz' (fun a => by rw [congrFun hz' a]; simp) (result m c)).symm

theorem final_4 (c : Dev nD) : (dats m 0 c).arrAt 4 cfg0.N = result m c :=
  (dats m 0 c).arrAt_eq_of_cover 4 (result m c) (flushed_eq m c) fun i =>
    ⟨t0_7, (flush0_4 t0_7).mpr rfl, by
      show i ∈ ((View.whole main_v2).slice (win0_4.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_4.index t0_7 0 * win0_4.size 0 ≤ (i 0 : Nat) ∧ (i 0 : Nat) < win0_4.index t0_7 0 * win0_4.size 0 + win0_4.xsize (grid0.coords t0_7) 0
                  rw [show win0_4.index t0_7 0 * win0_4.size 0 = 0 from by decide +kernel, show win0_4.xsize (grid0.coords t0_7) 0 = 1 from by decide +kernel]; omega
      | ⟨1, _⟩ => show win0_4.index t0_7 1 * win0_4.size 1 ≤ (i 1 : Nat) ∧ (i 1 : Nat) < win0_4.index t0_7 1 * win0_4.size 1 + win0_4.xsize (grid0.coords t0_7) 1
                  rw [show win0_4.index t0_7 1 * win0_4.size 1 = 0 from by decide +kernel, show win0_4.xsize (grid0.coords t0_7) 1 = 1 from by decide +kernel]; omega⟩

theorem tail_eq (c : Dev nD) : Pipeline.afterTail₀ cfgs (dats m) 0 (V0 m) [hostOps1] c main_v4
    = Host.divf (F := Ideal) (shapeCast S_ (result m c) Gen.shapeCasts_S1x1_S_) (constant (F := Ideal) S_ .f32 0x4C000000#32) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v2) = result m c :=
    (Pipeline.withArrays_arr spec0 launch0.win.arr_inj c (V0 m c) (fun w => (dats m 0 c).arrAt w (cfgs 0).N) 4).trans (final_4 m c)
  refine congrArg (fun z => Host.divf (F := Ideal) z (constant (F := Ideal) S_ .f32 0x4C000000#32)) (funext fun i => ?_)
  show shapeCast S_ (Pipeline.withArrays (cfgs 0).spec c (V0 m c) (fun w => (dats m 0 c).arrAt w (cfgs 0).N) (Proc.devRef .tc main_v2)) Gen.shapeCasts_S1x1_S_ i = _
  rw [e]

/-- The program's result: the mean of the specification over its four argument arrays. -/
theorem kernel_value (c : Dev nD) : Pipeline.afterTail₀ cfgs (dats m) 0 (V0 m) [hostOps1] c main_v4
    = Cert.MaskedMse.mean (m ((c : Thread nD τ).loc main_arg0)) (m ((c : Thread nD τ).loc main_arg1))
        (m ((c : Thread nD τ).loc main_arg2)) (m ((c : Thread nD τ).loc main_arg3)) := by
  rw [tail_eq]
  funext i
  unfold Cert.MaskedMse.mean
  show FloatOps.hostDivf (F := Ideal) (shapeCast S_ (result m c) Gen.shapeCasts_S1x1_S_ i) (FloatOps.ofBits (F := Ideal) .f32 0x4C000000#32) = _
  congr 1
  have hk : shapeCast S_ (result m c) Gen.shapeCasts_S1x1_S_ i = result m c (ix2 (0 : Fin 1) (0 : Fin 1)) :=
    shapeCast_apply (result m c) Gen.shapeCasts_S1x1_S_ i (ix2 (0 : Fin 1) (0 : Fin 1)) (by
      show (S1x1.rowMajor (ix2 (0 : Fin 1) (0 : Fin 1))).val = (S_.rowMajor i).val
      have n1 : S1x1.numel = 1 := by decide
      have n0 : S_.numel = 1 := by decide
      have h1 := (S1x1.rowMajor (ix2 (0 : Fin 1) (0 : Fin 1))).isLt
      have h2 := (S_.rowMajor i).isLt
      omega)
  rw [hk]
  show (holds (F := Ideal) m c 7 _).1 _ = _
  rw [result_apply m c _ _, entries_eq_total]

/-- The idealized kernel's run, read: it ends with the mean in its result and its arguments as they were. -/
theorem run_value : θ_run defs (onTc (τ := τ) (main (F := Ideal))) ⟨m, fun _ => 0, ρ⟩ (fun r => ∀ c : Dev nD,
      r.2.mem ((c.tc : Thread nD τ).loc main_v4)
        = Cert.MaskedMse.mean (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v4 (Pipeline.mem_restRefs_of main_v4 (by decide) (by decide))).trans (kernel_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main (F := Ideal) m ρ)

end Cert.KernelIdeal.Acc
end
-- ==== Proof.Reference.lean ====
/-
  The reference at the ideal instance. Its program broadcasts pd, gt and the two masks (converted bit by bit to
  floats) to the five-axis shape (entry, slot, channel, row, column), multiplies, subtracts, squares, sums over all
  five axes from the zero word and divides by the word 2^25. Read one operation at a time, the element of the
  squared array at (t, k, ch, r, c) is the squared masked difference of pd, gt at (t, ch, r, c) and the masks at
  (t, k, r, c); the five-axis sum is then the nested sum of the specification.
-/
import proofs.«150904_j52905407152940_2_alg».proof.Proof.Gen.ReferenceIdeal.Read
import proofs.«150904_j52905407152940_2_alg».proof.Proof.Spec

set_option maxRecDepth 16384

noncomputable section

namespace Cert.ReferenceIdeal.RefValue

open Cert.ReferenceIdeal Cert.ReferenceIdeal.Gen Cert.ReferenceIdeal.Read Cert.MaskedMse
open Idealize.ShloMosaic Idealize.ShloMosaic.ValueIdx

/-- One element of the array of squares. -/
theorem squares_apply (x0 x1 : (⟨S8x4x256x256, .f32⟩ : BufTy).Contents (Elt Ideal)) (x2 x3 : (⟨S8x16x256x256, .i1⟩ : BufTy).Contents (Elt Ideal))
    (j : S8x16x4x256x256.Idx) :
    val_main_v13 (F := Ideal) x0 x1 x2 x3 j
      = term (x0 (ix4 (j 0) (j 2) (j 3) (j 4))) (x1 (ix4 (j 0) (j 2) (j 3) (j 4))) (x2 (ix4 (j 0) (j 1) (j 3) (j 4))) (x3 (ix4 (j 0) (j 1) (j 3) (j 4))) := by
  have e0 : idx_main_v4 (idx_main_v5 j) = ix4 (j 0) (j 2) (j 3) (j 4) :=
    funext fun a => Fin.ext (by match a with | ⟨0, _⟩ => rfl | ⟨1, _⟩ => rfl | ⟨2, _⟩ => rfl | ⟨3, _⟩ => rfl)
  have e1 : idx_main_v8 (idx_main_v9 j) = ix4 (j 0) (j 2) (j 3) (j 4) :=
    funext fun a => Fin.ext (by match a with | ⟨0, _⟩ => rfl | ⟨1, _⟩ => rfl | ⟨2, _⟩ => rfl | ⟨3, _⟩ => rfl)
  have e2 : idx_main_v1 (idx_main_v6 j) = ix4 (j 0) (j 1) (j 3) (j 4) :=
    funext fun a => Fin.ext (by match a with | ⟨0, _⟩ => rfl | ⟨1, _⟩ => rfl | ⟨2, _⟩ => rfl | ⟨3, _⟩ => rfl)
  have e3 : idx_main_v3 (idx_main_v10 j) = ix4 (j 0) (j 1) (j 3) (j 4) :=
    funext fun a => Fin.ext (by match a with | ⟨0, _⟩ => rfl | ⟨1, _⟩ => rfl | ⟨2, _⟩ => rfl | ⟨3, _⟩ => rfl)
  rw [val_main_v13_apply, val_main_v12_apply, val_main_v7_apply, val_main_v11_apply, val_main_v5_apply, val_main_v4_apply,
    val_main_v6_apply, val_main_v1_apply, val_main_v0_apply, val_main_v9_apply, val_main_v8_apply, val_main_v10_apply,
    val_main_v3_apply, val_main_v2_apply, e0, e1, e2, e3]
  rfl

/-- The reference's result is the mean of the specification. -/
theorem result_eq (x0 x1 : (⟨S8x4x256x256, .f32⟩ : BufTy).Contents (Elt Ideal)) (x2 x3 : (⟨S8x16x256x256, .i1⟩ : BufTy).Contents (Elt Ideal)) :
    val_main_v15 (F := Ideal) x0 x1 x2 x3 = mean x0 x1 x2 x3 := by
  funext i
  rw [val_main_v15_apply, val_main_v14_apply, val_main_cst_apply, val_main_cst_0_apply]
  unfold mean
  have z : FloatOps.ofBits (F := Ideal) .f32 0x00000000#32 = (0 : EReal) := Ideal.ofBits_zero_f32
  rw [z, zero_add]
  congr 1
  rw [← flat_eq_total]
  exact Finset.sum_congr rfl fun j _ => squares_apply x0 x1 x2 x3 j

end Cert.ReferenceIdeal.RefValue

end
-- ==== Proof.lean ====
/-
  A masked mean-squared error: for eight batch entries, sixteen mask slots, four channels and a 256-by-256
  image, both programs compute the sum over all (entry, slot, channel, row, column) of
  (pd * pd_mask - gt * gt_mask)^2 and divide it by 2^25, the number of summands.
  The kernel walks the batch entries as grid points and keeps a running total in a one-by-one scratch: cleared
  at the first entry, increased at every entry by the sum over that entry's sixteen slots (each slot summed over
  channels, then columns, then rows), and copied to the one-by-one result at the last entry; the division is done
  on the host afterwards. The reference forms the five-axis array of squares and sums it in one reduction.
  Both are the same finite sum on the extended reals, regrouped; no finiteness of the inputs is needed.
-/
import proofs.«150904_j52905407152940_2_alg».proof.Defs
import proofs.«150904_j52905407152940_2_alg».proof.Proof.Gen.Kernel
import proofs.«150904_j52905407152940_2_alg».proof.Proof.Gen.KernelIdeal
import proofs.«150904_j52905407152940_2_alg».proof.Proof.Gen.ReferenceIdeal
import proofs.«150904_j52905407152940_2_alg».proof.Proof.Gen.Pre_finite_inputs
import proofs.«150904_j52905407152940_2_alg».proof.Proof.K.Total
import proofs.«150904_j52905407152940_2_alg».proof.Proof.KI.Total
import proofs.«150904_j52905407152940_2_alg».proof.Proof.Gen.ReferenceIdeal.Run
import proofs.«150904_j52905407152940_2_alg».proof.Proof.KI.Result
import proofs.«150904_j52905407152940_2_alg».proof.Proof.Reference
import Idealize.ShloMosaic.Adequacy
import Idealize.ShloMosaic.Init

noncomputable section

namespace Cert.Proof

open Idealize.ShloMosaic Idealize.SL.Sem

/-- The word-level kernel runs to the end and leaves its arguments as they were. -/
theorem frame_k : @Cert.frame_Kernel Cert.Kernel.Gen.facts Cert.Pre_finite_inputs.Gen.facts :=
  fun m ρ _ => Cert.Kernel.Acc.frame (F := Bits) m ρ

/-- So does the idealized kernel. -/
theorem frame_ki : @Cert.frame_KernelIdeal Cert.KernelIdeal.Gen.facts Cert.Pre_finite_inputs.Gen.facts :=
  fun m ρ _ => Cert.KernelIdeal.Acc.frame (F := Ideal) m ρ

/-- The reference is a line of host operations: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the ideal instance the kernel ends with the specification's mean of its arguments (the running total over the
    grid, read back), and the reference with the same mean of arguments that agree (its five-axis sum regrouped). -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.MaskedMse.mean
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Acc.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
